-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S8192 : Shape := ⟨1, ![8192]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x1 .f32) (main_arg1 : FVec F S8192 .f32) (main_arg2 : IVec S8192 32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg2 main_v9
  let main_c_3 : IVec S_ 32 := constantI S_ 32 1#32
  let main_v11 : IVec S8192 32 := broadcastInDim S8192 ![] bcast_S_S8192 main_c_3
  let main_v12 : IVec S8192 1 := cmpi .sle main_arg2 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S8192x1 : Shape := ⟨2, ![8192, 1]⟩
abbrev S8192 : Shape := ⟨1, ![8192]⟩
abbrev S_ : Shape := ⟨0, ![]⟩
abbrev S1x128 : Shape := ⟨2, ![1, 128]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩
abbrev S1x1 : Shape := ⟨2, ![1, 1]⟩

abbrev nBuf : Space → Nat
  | .hbm => 17
  | .vmem => 12
  | .smem => 0
  | _ => 0

abbrev bufTy : (tb : Table) → Fin (tcTables nBuf tb) → BufTy
  | .hbm, ⟨0, _⟩ => ⟨S8192x1, .f32⟩
  | .hbm, ⟨1, _⟩ => ⟨S8192, .f32⟩
  | .hbm, ⟨2, _⟩ => ⟨S8192, .i32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S1x128, .f32⟩
  | .hbm, ⟨10, _⟩ => ⟨S1x128, .f32⟩
  | .hbm, ⟨11, _⟩ => ⟨S1x1, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1x128, .f32⟩
  | .local _ .vmem, ⟨11, _⟩ => ⟨S1x128, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  bcast_S_S8192 : S_.BroadcastsInDim S8192 (![] : Fin 0 → Fin S8192.rank)
  shapeCasts_S8192_S8192x1 : S8192.ShapeCasts S8192x1
  inb_S1x128_S1x128_0_0 : ∀ a, (![0, 0] : Fin 2 → Nat) a + S1x128.size a ≤ S1x128.size a
  h_S1x128 : 0 < S1x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1x128_S1x128 : S1x128.ShapeCasts S1x128
  shapeCasts_S1_S1x1 : S1.ShapeCasts S1x1
  shapeCasts_S1x1_S1x1 : S1x1.ShapeCasts S1x1
  broadcasts_S1x1_S1x128 : S1x1.Broadcasts S1x128
  slices_S1x128_S1x1_0_0 : S1x128.Slices ![0, 0] S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)

variable [Facts₀]

abbrev win0_0 : Pipeline.Window sig grid0 :=
  Pipeline.Window.ofSpec (Memref.whole main_arg0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1 : Shape := ⟨2, ![8192, 1]⟩
abbrev S8192 : Shape := ⟨1, ![8192]⟩
abbrev S_ : Shape := ⟨0, ![]⟩
abbrev S1x8192 : Shape := ⟨2, ![1, 8192]⟩
abbrev S8192x8192 : Shape := ⟨2, ![8192, 8192]⟩

abbrev nBuf : Space → Nat
  | .hbm => 37
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .i1⟩
  | .hbm, ⟨13, _⟩ => ⟨S8192x8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  shapeCasts_S8192x1_S8192 : S8192x1.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.KB.Runs.lean ====
/-
  The pairwise-loss kernel of `Kernel`: what its two runs share.

  The body runs at the 64 points of an 8 × 8 grid. At the first point it stores zeros into its two accumulator blocks
  (the numerator's and the denominator's, one row of 128 lanes each) before adding the point's tile sums to them; at
  every later point it adds the tile sums to what the point before left. Which of the two a point is in is decided by
  the grid coordinates (`cond0`, `hcond0`): the reset is taken at point 0 only.
-/
import proofs.«173071_j3633542332969_1_alg».proof.Proof.Gen.Kernel.Launch
import proofs.«173071_j3633542332969_1_alg».proof.Proof.Gen.Kernel.Skeleton
import proofs.«173071_j3633542332969_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The condition of the body's reset: both grid coordinates are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only — decided over the grid. -/
theorem hcond0 : ∀ t : Fin cfg0.N, cond0 (grid0.coords t) ↔ t.val % 64 = 0 :=
  (by decide +kernel : ∀ t : Fin grid0.N, cond0 (grid0.coords t) ↔ t.val % 64 = 0)

/-- One staging buffer of each accumulator window, through which its contents are stated. -/
abbrev VO5 : View sig .tc .vmem S1x128 .f32 := (Memref.whole cc0_stg5_0 : Memref sig .tc .vmem S1x128 .f32).view
abbrev VO6 : View sig .tc .vmem S1x128 .f32 := (Memref.whole cc0_stg6_0 : Memref sig .tc .vmem S1x128 .f32).view

/-- Each window's current staging memref at point `t`, as the pipeline passes it to the body, and its wholeness. -/
abbrev ms0 (t : Fin cfg0.N) : Memref sig .tc .vmem S1024x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)

end Cert.Kernel.Hand

end
-- ==== Proof.KB.RunA.lean ====
/-
  The body of `Kernel`'s kernel at the FIRST grid point, run once on any whole staging buffers: the five input
  blocks are read and left as they were; each accumulator block, whatever it held, ends with the pieces the body's
  stores leave — the zero row, then the zero row plus the tile's sum.
-/
import proofs.«173071_j3633542332969_1_alg».proof.Proof.KB.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two accumulator buffers at the first point, with the proof that the body
    runs there: inputs at their contents, accumulators at anything. -/
noncomputable def kernelRunA (c : Dev nD) (i : grid0.Coords)
    (a2 : Memref sig .tc .vmem S1024x1 .f32) (h2 : a2.IsWhole) (a3 : Memref sig .tc .vmem S1024x1 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1x128 .f32) (h7 : a7.IsWhole)
    (a8 : Memref sig .tc .vmem S1x128 .f32) (h8 : a8.IsWhole) (hc : cond0 i)
    (x0 x1 x2 x3 x4 : Vec F S1024x1 .f32) :
    { L : List (View.Piece (Elt F) S1x128 .f32) × List (View.Piece (Elt F) S1x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4
                ∗ (∃ f, a7.view.loc (c : Thread nD τ) ↦[a7.view.set]{fullShare} a7.view.writes (Elt F) f L.1)
                ∗ (∃ f, a8.view.loc (c : Thread nD τ) ↦[a8.view.set]{fullShare} a8.view.writes (Elt F) f L.2)) -∗ K ⟨⟩))
          ⊢ wp frame (wpE (defs₀ (F := F)) Variants.none c none) E (cc0__kernel i a2 h2 a3 h3 a4 h4 a5 h5 a6 h6 a7 h7 a8 h8) K } := by
  refine ⟨(?_, ?_), fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := h2.eq_unread hf0; obtain rfl := h3.eq_unread hf1; obtain rfl := h4.eq_unread hf2
    obtain rfl := h5.eq_unread hf3; obtain rfl := h6.eq_unread hf4
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    iexists _; iexact H6

end Cert.Kernel.Hand

end
-- ==== Proof.KB.RunB.lean ====
/-
  The body of `Kernel`'s kernel at a LATER grid point, run once on any whole staging buffers: the five input blocks
  are read and left as they were; each accumulator block, holding what the point before left, ends with the one piece
  the body stores — that row plus the tile's sum.
-/
import proofs.«173071_j3633542332969_1_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two accumulator buffers at a later point, with the proof that the body
    runs there: inputs at their contents, accumulators at the running contents `xo5`, `xo6`. -/
noncomputable def kernelRunB (c : Dev nD) (i : grid0.Coords)
    (a2 : Memref sig .tc .vmem S1024x1 .f32) (h2 : a2.IsWhole) (a3 : Memref sig .tc .vmem S1024x1 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1x128 .f32) (h7 : a7.IsWhole)
    (a8 : Memref sig .tc .vmem S1x128 .f32) (h8 : a8.IsWhole) (hc : ¬cond0 i)
    (x0 x1 x2 x3 x4 : Vec F S1024x1 .f32) (xo5 xo6 : Vec F S1x128 .f32) :
    { L : List (View.Piece (Elt F) S1x128 .f32) × List (View.Piece (Elt F) S1x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare xo5 ∗ owns (c : Thread nD τ) a8 fullShare xo6
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4
                ∗ (∃ f, a7.view.loc (c : Thread nD τ) ↦[a7.view.set]{fullShare} a7.view.writes (Elt F) f L.1)
                ∗ (∃ f, a8.view.loc (c : Thread nD τ) ↦[a8.view.set]{fullShare} a8.view.writes (Elt F) f L.2)) -∗ K ⟨⟩))
          ⊢ wp frame (wpE (defs₀ (F := F)) Variants.none c none) E (cc0__kernel i a2 h2 a3 h3 a4 h4 a5 h5 a6 h6 a7 h7 a8 h8) K } := by
  refine ⟨(?_, ?_), fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0; obtain rfl := h3.eq_unread hf1; obtain rfl := h4.eq_unread hf2
    obtain rfl := h5.eq_unread hf3; obtain rfl := h6.eq_unread hf4
    obtain rfl := h7.eq_unread hf5; obtain rfl := h8.eq_unread hf6
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    iexists _; iexact H6

end Cert.Kernel.Hand

end
-- ==== Proof.KB.Body.lean ====
/-
  The proof data of `Kernel`'s one pipeline and its body obligation.

  After the body at point `t` each of the five input windows' staging buffers still holds the window's block at
  `t`, and the two accumulator buffers hold `outsAt t`: at point 0 what the first-point run leaves over anything, at a
  later point what the later-point run leaves over `outsAt (t - 1)` — the accumulator windows are written back at the
  last point only, so between two points their buffers keep what the body left. The arrays behind windows 0 and 1 are
  one buffer, and so are those behind windows 2 and 3: each pair of windows holds its buffer at the two halves of the
  full share.
-/
import proofs.«173071_j3633542332969_1_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter here, instantiated by the run
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved since the point before. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched its block index has not moved since the point before. -/
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched its block index has not moved since the point before. -/
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched its block index has not moved since the point before. -/
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is not
    fetched its block index has not moved since the point before. -/
theorem before_in4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the runs leave in the accumulator buffers -/

theorem coverA5 (c : Dev nD) (i : grid0.Coords)
    (a2 : Memref sig .tc .vmem S1024x1 .f32) (h2 : a2.IsWhole) (a3 : Memref sig .tc .vmem S1024x1 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1x128 .f32) (h7 : a7.IsWhole)
    (a8 : Memref sig .tc .vmem S1x128 .f32) (h8 : a8.IsWhole) (hc : cond0 i)
    (x0 x1 x2 x3 x4 : Vec F S1024x1 .f32) (y : S1x128.Idx) :
    ∃ pc ∈ (kernelRunA c i a2 h2 a3 h3 a4 h4 a5 h5 a6 h6 a7 h7 a8 h8 hc x0 x1 x2 x3 x4).1.1, y ∈ pc.1.set :=
  View.cover_of_tiledL (kernelRunA c i a2 h2 a3 h3 a4 h4 a5 h5 a6 h6 a7 h7 a8 h8 hc x0 x1 x2 x3 x4).1.1 S1x128.size (by sl_kernel_rfl) y

theorem coverA6 (c : Dev nD) (i : grid0.Coords)
    (a2 : Memref sig .tc .vmem S1024x1 .f32) (h2 : a2.IsWhole) (a3 : Memref sig .tc .vmem S1024x1 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1x128 .f32) (h7 : a7.IsWhole)
    (a8 : Memref sig .tc .vmem S1x128 .f32) (h8 : a8.IsWhole) (hc : cond0 i)
    (x0 x1 x2 x3 x4 : Vec F S1024x1 .f32) (y : S1x128.Idx) :
    ∃ pc ∈ (kernelRunA c i a2 h2 a3 h3 a4 h4 a5 h5 a6 h6 a7 h7 a8 h8 hc x0 x1 x2 x3 x4).1.2, y ∈ pc.1.set :=
  View.cover_of_tiledL (kernelRunA c i a2 h2 a3 h3 a4 h4 a5 h5 a6 h6 a7 h7 a8 h8 hc x0 x1 x2 x3 x4).1.2 S1x128.size (by sl_kernel_rfl) y

theorem coverB5 (c : Dev nD) (i : grid0.Coords)
    (a2 : Memref sig .tc .vmem S1024x1 .f32) (h2 : a2.IsWhole) (a3 : Memref sig .tc .vmem S1024x1 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1x128 .f32) (h7 : a7.IsWhole)
    (a8 : Memref sig .tc .vmem S1x128 .f32) (h8 : a8.IsWhole) (hc : ¬cond0 i)
    (x0 x1 x2 x3 x4 : Vec F S1024x1 .f32) (xo5 xo6 : Vec F S1x128 .f32) (y : S1x128.Idx) :
    ∃ pc ∈ (kernelRunB c i a2 h2 a3 h3 a4 h4 a5 h5 a6 h6 a7 h7 a8 h8 hc x0 x1 x2 x3 x4 xo5 xo6).1.1, y ∈ pc.1.set :=
  View.cover_of_tiledL (kernelRunB c i a2 h2 a3 h3 a4 h4 a5 h5 a6 h6 a7 h7 a8 h8 hc x0 x1 x2 x3 x4 xo5 xo6).1.1 S1x128.size (by sl_kernel_rfl) y

theorem coverB6 (c : Dev nD) (i : grid0.Coords)
    (a2 : Memref sig .tc .vmem S1024x1 .f32) (h2 : a2.IsWhole) (a3 : Memref sig .tc .vmem S1024x1 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1x128 .f32) (h7 : a7.IsWhole)
    (a8 : Memref sig .tc .vmem S1x128 .f32) (h8 : a8.IsWhole) (hc : ¬cond0 i)
    (x0 x1 x2 x3 x4 : Vec F S1024x1 .f32) (xo5 xo6 : Vec F S1x128 .f32) (y : S1x128.Idx) :
    ∃ pc ∈ (kernelRunB c i a2 h2 a3 h3 a4 h4 a5 h5 a6 h6 a7 h7 a8 h8 hc x0 x1 x2 x3 x4 xo5 xo6).1.2, y ∈ pc.1.set :=
  View.cover_of_tiledL (kernelRunB c i a2 h2 a3 h3 a4 h4 a5 h5 a6 h6 a7 h7 a8 h8 hc x0 x1 x2 x3 x4 xo5 xo6).1.2 S1x128.size (by sl_kernel_rfl) y

/-- What the first-point run leaves in the numerator's accumulator buffer: its pieces read back. -/
def outA5 (c : Dev nD) (t : Fin cfg0.N) (hc : cond0 (grid0.coords t)) (x0 x1 x2 x3 x4 : Vec F S1024x1 .f32) : Vec F S1x128 .f32 :=
  VO5.read (Elt F) (VO5.writes (Elt F) VO5.junk (kernelRunA c (grid0.coords t) (ms0 t) (hs0 t) (ms1 t) (hs1 t) (ms2 t) (hs2 t) (ms3 t) (hs3 t) (ms4 t) (hs4 t) (ms5 t) (hs5 t) (ms6 t) (hs6 t) hc x0 x1 x2 x3 x4).1.1)
/-- The same for the denominator's. -/
def outA6 (c : Dev nD) (t : Fin cfg0.N) (hc : cond0 (grid0.coords t)) (x0 x1 x2 x3 x4 : Vec F S1024x1 .f32) : Vec F S1x128 .f32 :=
  VO6.read (Elt F) (VO6.writes (Elt F) VO6.junk (kernelRunA c (grid0.coords t) (ms0 t) (hs0 t) (ms1 t) (hs1 t) (ms2 t) (hs2 t) (ms3 t) (hs3 t) (ms4 t) (hs4 t) (ms5 t) (hs5 t) (ms6 t) (hs6 t) hc x0 x1 x2 x3 x4).1.2)
/-- What a later-point run leaves in the numerator's accumulator buffer, over the running contents `xo5`, `xo6`. -/
def outB5 (c : Dev nD) (t : Fin cfg0.N) (hc : ¬cond0 (grid0.coords t)) (x0 x1 x2 x3 x4 : Vec F S1024x1 .f32) (xo5 xo6 : Vec F S1x128 .f32) : Vec F S1x128 .f32 :=
  VO5.read (Elt F) (VO5.writes (Elt F) VO5.junk (kernelRunB c (grid0.coords t) (ms0 t) (hs0 t) (ms1 t) (hs1 t) (ms2 t) (hs2 t) (ms3 t) (hs3 t) (ms4 t) (hs4 t) (ms5 t) (hs5 t) (ms6 t) (hs6 t) hc x0 x1 x2 x3 x4 xo5 xo6).1.1)
/-- The same for the denominator's. -/
def outB6 (c : Dev nD) (t : Fin cfg0.N) (hc : ¬cond0 (grid0.coords t)) (x0 x1 x2 x3 x4 : Vec F S1024x1 .f32) (xo5 xo6 : Vec F S1x128 .f32) : Vec F S1x128 .f32 :=
  VO6.read (Elt F) (VO6.writes (Elt F) VO6.junk (kernelRunB c (grid0.coords t) (ms0 t) (hs0 t) (ms1 t) (hs1 t) (ms2 t) (hs2 t) (ms3 t) (hs3 t) (ms4 t) (hs4 t) (ms5 t) (hs5 t) (ms6 t) (hs6 t) hc x0 x1 x2 x3 x4 xo5 xo6).1.2)

/-- THE ACCUMULATION: the two accumulator buffers after the body at position `n`. -/
def outsAt (c : Dev nD) : (n : ℕ) → n < cfg0.N → Vec F S1x128 .f32 × Vec F S1x128 .f32
  | 0, hn => (outA5 c ⟨0, hn⟩ ((hcond0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩),
              outA6 c ⟨0, hn⟩ ((hcond0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 64 = 0 then
      (outA5 c ⟨n + 1, hn⟩ ((hcond0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩),
       outA6 c ⟨n + 1, hn⟩ ((hcond0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      (outB5 c ⟨n + 1, hn⟩ (fun h => h0 ((hcond0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩)
          (outsAt c n (Nat.lt_of_succ_lt hn)).1 (outsAt c n (Nat.lt_of_succ_lt hn)).2,
       outB6 c ⟨n + 1, hn⟩ (fun h => h0 ((hcond0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩)
          (outsAt c n (Nat.lt_of_succ_lt hn)).1 (outsAt c n (Nat.lt_of_succ_lt hn)).2)

theorem outsAt_A5 (c : Dev nD) (t : Fin cfg0.N) (h0 : t.val % 64 = 0) :
    (outsAt V c t.val t.isLt).1 = outA5 c t ((hcond0 t).mpr h0) (iblk V c 0 t) (iblk V c 1 t) (iblk V c 2 t) (iblk V c 3 t) (iblk V c 4 t) := by
  obtain ⟨n, hn⟩ := t
  cases n with
  | zero => exact rfl
  | succ n => exact (congrArg Prod.fst (dif_pos h0)).trans rfl

theorem outsAt_A6 (c : Dev nD) (t : Fin cfg0.N) (h0 : t.val % 64 = 0) :
    (outsAt V c t.val t.isLt).2 = outA6 c t ((hcond0 t).mpr h0) (iblk V c 0 t) (iblk V c 1 t) (iblk V c 2 t) (iblk V c 3 t) (iblk V c 4 t) := by
  obtain ⟨n, hn⟩ := t
  cases n with
  | zero => exact rfl
  | succ n => exact (congrArg Prod.snd (dif_pos h0)).trans rfl

theorem outsAt_B5 (c : Dev nD) (t : Fin cfg0.N) (h0 : ¬t.val % 64 = 0) :
    (outsAt V c t.val t.isLt).1 = outB5 c t (fun h => h0 ((hcond0 t).mp h)) (iblk V c 0 t) (iblk V c 1 t) (iblk V c 2 t) (iblk V c 3 t) (iblk V c 4 t)
      (outsAt V c (t.val - 1) (Nat.lt_of_le_of_lt (Nat.sub_le _ _) t.isLt)).1 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (congrArg Prod.fst (dif_neg h0)).trans rfl

theorem outsAt_B6 (c : Dev nD) (t : Fin cfg0.N) (h0 : ¬t.val % 64 = 0) :
    (outsAt V c t.val t.isLt).2 = outB6 c t (fun h => h0 ((hcond0 t).mp h)) (iblk V c 0 t) (iblk V c 1 t) (iblk V c 2 t) (iblk V c 3 t) (iblk V c 4 t)
      (outsAt V c (t.val - 1) (Nat.lt_of_le_of_lt (Nat.sub_le _ _) t.isLt)).1 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (congrArg Prod.snd (dif_neg h0)).trans rfl

/-! ## The proof data -/

/-- The proof data on core `c`: the arrays as the region finds them; after the body each input's buffer at its block and
    the accumulators' at `outsAt`; the invariant the scoped rest and the generator register; nothing owed; the two
    windows on one array hold it at the two halves of the full share. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
    | ⟨6, _⟩ => (outsAt V c t.val t.isLt).2
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats V 0 c).A w = V c (Pipeline.arrRef spec0 w) := by
  dsimp only [dats]

theorem after0 (c : Dev nD) (t : Fin cfg0.N) : (dats V 0 c).after 0 t = iblk V c 0 t := by dsimp only [dats]
theorem after1 (c : Dev nD) (t : Fin cfg0.N) : (dats V 0 c).after 1 t = iblk V c 1 t := by dsimp only [dats]
theorem after2 (c : Dev nD) (t : Fin cfg0.N) : (dats V 0 c).after 2 t = iblk V c 2 t := by dsimp only [dats]
theorem after3 (c : Dev nD) (t : Fin cfg0.N) : (dats V 0 c).after 3 t = iblk V c 3 t := by dsimp only [dats]
theorem after4 (c : Dev nD) (t : Fin cfg0.N) : (dats V 0 c).after 4 t = iblk V c 4 t := by dsimp only [dats]
theorem after5 (c : Dev nD) (t : Fin cfg0.N) : (dats V 0 c).after 5 t = (outsAt V c t.val t.isLt).1 := by dsimp only [dats]
theorem after6 (c : Dev nD) (t : Fin cfg0.N) : (dats V 0 c).after 6 t = (outsAt V c t.val t.isLt).2 := by dsimp only [dats]

theorem before0 (c : Dev nD) (t : Fin cfg0.N) (d) : (dats V 0 c).before 0 t d = iblk V c 0 t := before_in0 V (dats V 0 c) (A_eq V c 0) (after0 V c) t d
theorem before1 (c : Dev nD) (t : Fin cfg0.N) (d) : (dats V 0 c).before 1 t d = iblk V c 1 t := before_in1 V (dats V 0 c) (A_eq V c 1) (after1 V c) t d
theorem before2 (c : Dev nD) (t : Fin cfg0.N) (d) : (dats V 0 c).before 2 t d = iblk V c 2 t := before_in2 V (dats V 0 c) (A_eq V c 2) (after2 V c) t d
theorem before3 (c : Dev nD) (t : Fin cfg0.N) (d) : (dats V 0 c).before 3 t d = iblk V c 3 t := before_in3 V (dats V 0 c) (A_eq V c 3) (after3 V c) t d
theorem before4 (c : Dev nD) (t : Fin cfg0.N) (d) : (dats V 0 c).before 4 t d = iblk V c 4 t := before_in4 V (dats V 0 c) (A_eq V c 4) (after4 V c) t d

/-- At a later point accumulator window 5's buffer holds what the body left at the point before: it is not the
    first point, and the buffer was not written back in between. -/
theorem before5_B (c : Dev nD) (t : Fin cfg0.N) (h0 : ¬t.val % 64 = 0) (d) :
    (dats V 0 c).before 5 t d = (outsAt V c (t.val - 1) (Nat.lt_of_le_of_lt (Nat.sub_le _ _) t.isLt)).1 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

theorem before6_B (c : Dev nD) (t : Fin cfg0.N) (h0 : ¬t.val % 64 = 0) (d) :
    (dats V 0 c).before 6 t d = (outsAt V c (t.val - 1) (Nat.lt_of_le_of_lt (Nat.sub_le _ _) t.isLt)).2 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats V 0 c).Φ t.castSucc ∗ (dats V 0 c).owesAt () t.castSucc
    ∗ (∃ d, owns (c : Thread nD τ) (ms0 t) fullShare ((dats V 0 c).before 0 t d))
    ∗ (∃ d, owns (c : Thread nD τ) (ms1 t) fullShare ((dats V 0 c).before 1 t d))
    ∗ (∃ d, owns (c : Thread nD τ) (ms2 t) fullShare ((dats V 0 c).before 2 t d))
    ∗ (∃ d, owns (c : Thread nD τ) (ms3 t) fullShare ((dats V 0 c).before 3 t d))
    ∗ (∃ d, owns (c : Thread nD τ) (ms4 t) fullShare ((dats V 0 c).before 4 t d))
    ∗ (∃ d, owns (c : Thread nD τ) (ms5 t) fullShare ((dats V 0 c).before 5 t d))
    ∗ (∃ d, owns (c : Thread nD τ) (ms6 t) fullShare ((dats V 0 c).before 6 t d)))

/-- and what it returns. -/
def bodyPost (c : Dev nD) (t : Fin cfg0.N) : sProp 𝕄 :=
  iprop((dats V 0 c).Φ t.succ ∗ (dats V 0 c).owesAt () t.succ
    ∗ owns (c : Thread nD τ) (ms0 t) fullShare ((dats V 0 c).after 0 t)
    ∗ owns (c : Thread nD τ) (ms1 t) fullShare ((dats V 0 c).after 1 t)
    ∗ owns (c : Thread nD τ) (ms2 t) fullShare ((dats V 0 c).after 2 t)
    ∗ owns (c : Thread nD τ) (ms3 t) fullShare ((dats V 0 c).after 3 t)
    ∗ owns (c : Thread nD τ) (ms4 t) fullShare ((dats V 0 c).after 4 t)
    ∗ owns (c : Thread nD τ) (ms5 t) fullShare ((dats V 0 c).after 5 t)
    ∗ owns (c : Thread nD τ) (ms6 t) fullShare ((dats V 0 c).after 6 t))

set_option maxHeartbeats 1600000 in
/-- The body at any point: the inputs' buffers hold their blocks; the grid decides which run applies; at a later point the
    accumulators hold what the point before left; the invariant passes through unread; the core owes nothing. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dats V 0 c).Φ t.succ = (dats V 0 c).Φ t.castSucc from rfl,
    show (dats V 0 c).owesAt () t.succ = (dats V 0 c).owesAt () t.castSucc from rfl,
    after0, after1, after2, after3, after4, after5, after6]
  have hN : t.val < 64 := lt_of_lt_of_eq t.isLt (show cfg0.N = 64 from N_0)
  by_cases h0 : t.val % 64 = 0
  · rw [outsAt_A5 V c t h0, outsAt_A6 V c t h0]
    unfold outA5 outA6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t) _ _ _ _ _ _ _ _ _ _ _ _ _ _ ((hcond0 t).mpr h0) (iblk V c 0 t) (iblk V c 1 t) (iblk V c 2 t) (iblk V c 3 t) (iblk V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA5 c _ _ _ _ _ _ _ _ _ _ _ _ _ _ _ _ _ _ _ _ _)
    · unfold owns; iexists _; isplitr
      swap; · iexact H6
      ipureintro; exact View.read_writes_of_cover _ _ _ _ _ (coverA6 c _ _ _ _ _ _ _ _ _ _ _ _ _ _ _ _ _ _ _ _ _)
  · rw [outsAt_B5 V c t h0, outsAt_B6 V c t h0]
    simp only [before5_B V c t h0, before6_B V c t h0]
    unfold outB5 outB6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) _ _ _ _ _ _ _ _ _ _ _ _ _ _ (fun h => h0 ((hcond0 t).mp h)) (iblk V c 0 t) (iblk V c 1 t) (iblk V c 2 t) (iblk V c 3 t) (iblk V c 4 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB5 c _ _ _ _ _ _ _ _ _ _ _ _ _ _ _ _ _ _ _ _ _ _ _)
    · unfold owns; iexists _; isplitr
      swap; · iexact H6
      ipureintro; exact View.read_writes_of_cover _ _ _ _ _ (coverB6 c _ _ _ _ _ _ _ _ _ _ _ _ _ _ _ _ _ _ _ _ _ _ _)

/-- The library's body obligation, at every point. -/
theorem body_obligation (c : Dev nD) : BodyObligation (dats (F := F) V 0 c) (defs₀ (F := F)) Variants.none () Set.univ := fun t => by
  rw [bigSep_W0, bigSep_W0]
  exact sound_body V c t

end Cert.Kernel.Hand

end
-- ==== Proof.KB.Launch.lean ====
/-
  The run of `Kernel`'s @main: six host operations, the kernel region, six host operations.

  Between two segments the TensorCore holds every unscoped buffer at a valuation: the launch contents `W0`; after the
  first host stretch `W1`; after the region `W2` — `W1` with the two result arrays at what the pipeline's write-backs
  leave —; after the last stretch `W3`. At the region's entry the arrays behind the windows are taken out of the
  unscoped buffers: windows 0 and 1 share the score array and windows 2 and 3 the time array, each pair splitting its
  buffer's full share in two halves, which are joined again at the exit (an input array ends as it was entered).
  The final state is read off the last valuation.
-/
import proofs.«173071_j3633542332969_1_alg».proof.Proof.KB.Body
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- The two result arrays as the pipeline leaves them. -/
def res5 (c : Dev nD) : Buf (Elt F) ((c : Thread nD τ).loc main_v5_0) := (dats (V1 m ρ) 0 c).arrAt 5 cfg0.N
def res6 (c : Dev nD) : Buf (Elt F) ((c : Thread nD τ).loc main_v5_1) := (dats (V1 m ρ) 0 c).arrAt 6 cfg0.N
/-- At the region's exit: the result arrays at what the pipeline leaves, every other buffer as entered. -/
def W2 (c : Dev nD) : Valuation τ sig (Elt F) :=
  Function.update (Function.update (W1 m ρ c) (Proc.devRef .tc main_v5_0) (res5 m ρ c)) (Proc.devRef .tc main_v5_1) (res6 m ρ c)
abbrev V2 : (c : Dev nD) → (b : Ref sig .tc) → Buf (Elt F) ((c : Thread nD τ).loc b) := fun c b => W2 m ρ c b
/-- After the last host stretch. -/
abbrev W3 : Dev nD → Valuation τ sig (Elt F) := fun c => StableHlo.after hostOps1 (W2 m ρ c)

theorem W2_v5_0 (c : Dev nD) : W2 m ρ c (Proc.devRef .tc main_v5_0) = res5 m ρ c := by
  unfold W2
  rw [Function.update_of_ne (StableHlo.devRef_ne_of_ne (by decide)), Function.update_self]
theorem W2_v5_1 (c : Dev nD) : W2 m ρ c (Proc.devRef .tc main_v5_1) = res6 m ρ c := by
  unfold W2
  rw [Function.update_self]
theorem W2_of_ne (c : Dev nD) (b : Ref sig .tc) (h0 : b ≠ main_v5_0) (h1 : b ≠ main_v5_1) :
    W2 m ρ c (Proc.devRef .tc b) = W1 m ρ c (Proc.devRef .tc b) := by
  unfold W2
  rw [Function.update_of_ne (StableHlo.devRef_ne_of_ne h1), Function.update_of_ne (StableHlo.devRef_ne_of_ne h0)]

/-! ## The arrays behind the windows at the region's two ends -/

/-- The buffers behind the windows' arrays, listed. -/
theorem arrBufs_eq (c : Dev nD) (Vx : (b : Ref sig .tc) → Buf (Elt F) ((c : Thread nD τ).loc b)) :
    (Pipeline.arrBufs (Ix := Unit) (Name := ℕ) (U := UR sig nD τ) (Lvl := ℕ) spec0 c Vx : sProp 𝕄)
      = iprop((((c : Thread nD τ).loc main_arg0) ↦{fullShare} Vx main_arg0) ∗ (((c : Thread nD τ).loc main_v4) ↦{fullShare} Vx main_v4)
          ∗ (((c : Thread nD τ).loc main_v3) ↦{fullShare} Vx main_v3) ∗ (((c : Thread nD τ).loc main_v5_0) ↦{fullShare} Vx main_v5_0)
          ∗ (((c : Thread nD τ).loc main_v5_1) ↦{fullShare} Vx main_v5_1)) := by
  unfold Pipeline.arrBufs
  exact bigSep_eq_bigSepL_of_eq [main_arg0, main_v4, main_v3, main_v5_0, main_v5_1] (by decide) (by decide) _

/-- The pipeline's arrays at contents `Fx`, window by window at its share. -/
theorem arrays_eq (c : Dev nD) (Fx : (w : Fin cfg0.W) → Buf (Elt F) ((cfg0.win w).arr.view.loc (c : Thread nD τ))) :
    ((dats (V1 m ρ) 0 c).arrays Fx : sProp 𝕄)
      = iprop((((c : Thread nD τ).loc main_arg0) ↦{fullShare.left} Fx 0) ∗ (((c : Thread nD τ).loc main_arg0) ↦{fullShare.right} Fx 1)
          ∗ (((c : Thread nD τ).loc main_v4) ↦{fullShare.left} Fx 2) ∗ (((c : Thread nD τ).loc main_v4) ↦{fullShare.right} Fx 3)
          ∗ (((c : Thread nD τ).loc main_v3) ↦{fullShare} Fx 4) ∗ (((c : Thread nD τ).loc main_v5_0) ↦{fullShare} Fx 5)
          ∗ (((c : Thread nD τ).loc main_v5_1) ↦{fullShare} Fx 6)) := by
  unfold Dat.arrays
  rw [bigSep_W0]
  rw [(arr_whole0 0).set_eq_univ, (arr_whole0 2).set_eq_univ, (arr_whole0 4).set_eq_univ, (arr_whole0 5).set_eq_univ,
    (arr_whole0 6).set_eq_univ]
  rfl

/-- ENTRY: the buffers behind the arrays at the entry contents are the pipeline's arrays at their entry contents, the
    score array and the time array each split in two halves. -/
theorem arrays_entry (c : Dev nD) :
    (Pipeline.arrBufs (Ix := Unit) (Name := ℕ) (U := UR sig nD τ) (Lvl := ℕ) spec0 c (V1 m ρ c) : sProp 𝕄)
      ⊢ (dats (V1 m ρ) 0 c).arrays ((dats (V1 m ρ) 0 c).arrAt · 0) := by
  rw [arrBufs_eq, arrays_eq]
  iintro ⟨H0, H4, H3, H50, H51⟩
  ihave H0' := (pointsTo_share (PosShare.mem_left_op_right fullShare)).1 $$ H0
  icases H0' with ⟨H0l, H0r⟩
  ihave H4' := (pointsTo_share (PosShare.mem_left_op_right fullShare)).1 $$ H4
  icases H4' with ⟨H4l, H4r⟩
  isplitl [H0l]; · iexact H0l
  isplitl [H0r]; · iexact H0r
  isplitl [H4l]; · iexact H4l
  isplitl [H4r]; · iexact H4r
  isplitl [H3]; · iexact H3
  isplitl [H50]; · iexact H50
  iexact H51

/-- EXIT: the pipeline's arrays at their final contents are the buffers behind them at the exit contents: an input
    array ends as entered (its two halves joined again), a result array at what the write-backs leave. -/
theorem arrays_exit (c : Dev nD) :
    ((dats (V1 m ρ) 0 c).arrays ((dats (V1 m ρ) 0 c).arrAt · cfg0.N) : sProp 𝕄)
      ⊢ Pipeline.arrBufs (Ix := Unit) (Name := ℕ) (U := UR sig nD τ) (Lvl := ℕ) spec0 c (V2 m ρ c) := by
  rw [arrBufs_eq, arrays_eq]
  rw [(dats (V1 m ρ) 0 c).arrAt_in 0 rfl, (dats (V1 m ρ) 0 c).arrAt_in 1 rfl, (dats (V1 m ρ) 0 c).arrAt_in 2 rfl,
    (dats (V1 m ρ) 0 c).arrAt_in 3 rfl, (dats (V1 m ρ) 0 c).arrAt_in 4 rfl]
  rw [show V2 m ρ c main_arg0 = V1 m ρ c main_arg0 from W2_of_ne m ρ c main_arg0 (by decide) (by decide),
    show V2 m ρ c main_v4 = V1 m ρ c main_v4 from W2_of_ne m ρ c main_v4 (by decide) (by decide),
    show V2 m ρ c main_v3 = V1 m ρ c main_v3 from W2_of_ne m ρ c main_v3 (by decide) (by decide),
    show V2 m ρ c main_v5_0 = res5 m ρ c from W2_v5_0 m ρ c, show V2 m ρ c main_v5_1 = res6 m ρ c from W2_v5_1 m ρ c]
  iintro ⟨H0l, H0r, H4l, H4r, H3, H50, H51⟩
  isplitl [H0l H0r]
  · iapply (pointsTo_share (PosShare.mem_left_op_right fullShare)).2
    isplitl [H0l]; · iexact H0l
    iexact H0r
  isplitl [H4l H4r]
  · iapply (pointsTo_share (PosShare.mem_left_op_right fullShare)).2
    isplitl [H4l]; · iexact H4l
    iexact H4r
  isplitl [H3]; · iexact H3
  isplitl [H50]; · iexact H50
  iexact H51

/-! ## No host operation writes an argument -/

theorem pre_keeps0 (W : Valuation τ sig (Elt F)) : StableHlo.after (hostOps0 (F := F)) W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem pre_keeps1 (W : Valuation τ sig (Elt F)) : StableHlo.after (hostOps0 (F := F)) W (Proc.devRef .tc main_arg1) = W (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem pre_keeps2 (W : Valuation τ sig (Elt F)) : StableHlo.after (hostOps0 (F := F)) W (Proc.devRef .tc main_arg2) = W (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem post_keeps0 (W : Valuation τ sig (Elt F)) : StableHlo.after (hostOps1 (F := F)) W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))
theorem post_keeps1 (W : Valuation τ sig (Elt F)) : StableHlo.after (hostOps1 (F := F)) W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))
theorem post_keeps2 (W : Valuation τ sig (Elt F)) : StableHlo.after (hostOps1 (F := F)) W (Proc.devRef .tc main_arg2) = W (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

theorem W3_arg0 (c : Dev nD) : W3 m ρ c (Proc.devRef .tc main_arg0) = m ((c : Thread nD τ).loc main_arg0) :=
  (post_keeps0 _).trans ((W2_of_ne m ρ c main_arg0 (by decide) (by decide)).trans (pre_keeps0 _))
theorem W3_arg1 (c : Dev nD) : W3 m ρ c (Proc.devRef .tc main_arg1) = m ((c : Thread nD τ).loc main_arg1) :=
  (post_keeps1 _).trans ((W2_of_ne m ρ c main_arg1 (by decide) (by decide)).trans (pre_keeps1 _))
theorem W3_arg2 (c : Dev nD) : W3 m ρ c (Proc.devRef .tc main_arg2) = m ((c : Thread nD τ).loc main_arg2) :=
  (post_keeps2 _).trans ((W2_of_ne m ρ c main_arg2 (by decide) (by decide)).trans (pre_keeps2 _))

/-! ## The segments and the launch -/

abbrev adm : (p : Fin 1) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m ρ c) ∗ ∃ r, prngReg c r)

theorem hrest (c : Dev nD) : ∀ b, b ∉ Finset.univ.image (Pipeline.arrRef spec0) → V2 m ρ c b = V1 m ρ c b :=
  fun b hb => W2_of_ne m ρ c b (fun e => hb (Finset.mem_image.mpr ⟨5, Finset.mem_univ _, e.symm⟩))
    (fun e => hb (Finset.mem_image.mpr ⟨6, Finset.mem_univ _, e.symm⟩))

set_option backward.isDefEq.respectTransparency.types false in
/-- THE REGION over the thread state: entered from every unscoped buffer at `W1`, left at `W2`. -/
def reg0 : Pipeline.RegionSeg (pcfgs (F := F)) adm (dats (V1 m ρ)) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((dats (V1 m ρ) 0 c).arrays ((dats (V1 m ρ) 0 c).arrAt · 0)
            ∗ Pipeline.unscopedRest (Ix := Unit) (Name := ℕ) (U := UR sig nD τ) (Lvl := ℕ) spec0 c (V1 m ρ c)) := by
      rw [Pipeline.unscopedBufs_split₀ cfgs (0 : Fin 1) winFacts₀0.arr_unscoped c (V1 m ρ c)]
      exact sep_mono (arrays_entry m ρ c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats (V1 m ρ) 0 c).Φ 0 = Pipeline.ΦA spec0 c from rfl]; unfold Pipeline.ΦA
    iintro ⟨Hp, -, Hr⟩
    isplitl [Hr]; · iexact Hr
    iexact Hp
  hout c := by
    rw [Pipeline.ownSems0_none, show (dats (V1 m ρ) 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dats (V1 m ρ) 0 c).arrays ((dats (V1 m ρ) 0 c).arrAt · cfg0.N)
          ∗ Pipeline.unscopedRest (Ix := Unit) (Name := ℕ) (U := UR sig nD τ) (Lvl := ℕ) spec0 c (V1 m ρ c))
        ⊢ (unscopedBufs c (V2 m ρ c) : sProp 𝕄) := by
      rw [Pipeline.unscopedBufs_split₀ cfgs (0 : Fin 1) winFacts₀0.arr_unscoped c (V2 m ρ c)]
      refine sep_mono (arrays_exit m ρ c) (Entails.of_eq ?_)
      unfold Pipeline.unscopedRest
      exact bigSep_congr fun b hb => by rw [hrest m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's three segments in order. -/
abbrev segs : List (Pipeline.Seg (pcfgs (F := F)) adm (dats (V1 m ρ)) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final state holds the result at the last valuation's and the three arguments as launched. -/
theorem run_main : θ_run defs (onTc (τ := τ) (main (F := F))) ⟨m, fun _ => 0, ρ⟩ (fun r => ∀ c : Dev nD,
      r.2.mem ((c.tc : Thread nD τ).loc main_v11) = W3 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (dats (V1 m ρ)) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v11 (by decide)),
       (h c _ (mem_uc main_arg0 (by decide))).trans (W3_arg0 m ρ c),
       (h c _ (mem_uc main_arg1 (by decide))).trans (W3_arg1 m ρ c),
       (h c _ (mem_uc main_arg2 (by decide))).trans (W3_arg2 m ρ c)⟩)

end Cert.Kernel.Hand

end
-- ==== Proof.KI.Runs.lean ====
/-
  The pairwise-loss kernel of `KernelIdeal`: what its two runs share.

  The body runs at the 64 points of an 8 × 8 grid. At the first point it stores zeros into its two accumulator blocks
  (the numerator's and the denominator's, one row of 128 lanes each) before adding the point's tile sums to them; at
  every later point it adds the tile sums to what the point before left. Which of the two a point is in is decided by
  the grid coordinates (`cond0`, `hcond0`): the reset is taken at point 0 only.
-/
import proofs.«173071_j3633542332969_1_alg».proof.Proof.Gen.KernelIdeal.Launch
import proofs.«173071_j3633542332969_1_alg».proof.Proof.Gen.KernelIdeal.Skeleton
import proofs.«173071_j3633542332969_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The condition of the body's reset: both grid coordinates are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only — decided over the grid. -/
theorem hcond0 : ∀ t : Fin cfg0.N, cond0 (grid0.coords t) ↔ t.val % 64 = 0 :=
  (by decide +kernel : ∀ t : Fin grid0.N, cond0 (grid0.coords t) ↔ t.val % 64 = 0)

/-- One staging buffer of each accumulator window, through which its contents are stated. -/
abbrev VO5 : View sig .tc .vmem S1x128 .f32 := (Memref.whole cc0_stg5_0 : Memref sig .tc .vmem S1x128 .f32).view
abbrev VO6 : View sig .tc .vmem S1x128 .f32 := (Memref.whole cc0_stg6_0 : Memref sig .tc .vmem S1x128 .f32).view

/-- Each window's current staging memref at point `t`, as the pipeline passes it to the body, and its wholeness. -/
abbrev ms0 (t : Fin cfg0.N) : Memref sig .tc .vmem S1024x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)

end Cert.KernelIdeal.Hand

end
-- ==== Proof.KI.RunA.lean ====
/-
  The body of `KernelIdeal`'s kernel at the FIRST grid point, run once on any whole staging buffers: the five input
  blocks are read and left as they were; each accumulator block, whatever it held, ends with the pieces the body's
  stores leave — the zero row, then the zero row plus the tile's sum.
-/
import proofs.«173071_j3633542332969_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two accumulator buffers at the first point, with the proof that the body
    runs there: inputs at their contents, accumulators at anything. -/
noncomputable def kernelRunA (c : Dev nD) (i : grid0.Coords)
    (a2 : Memref sig .tc .vmem S1024x1 .f32) (h2 : a2.IsWhole) (a3 : Memref sig .tc .vmem S1024x1 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1x128 .f32) (h7 : a7.IsWhole)
    (a8 : Memref sig .tc .vmem S1x128 .f32) (h8 : a8.IsWhole) (hc : cond0 i)
    (x0 x1 x2 x3 x4 : Vec F S1024x1 .f32) :
    { L : List (View.Piece (Elt F) S1x128 .f32) × List (View.Piece (Elt F) S1x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4
                ∗ (∃ f, a7.view.loc (c : Thread nD τ) ↦[a7.view.set]{fullShare} a7.view.writes (Elt F) f L.1)
                ∗ (∃ f, a8.view.loc (c : Thread nD τ) ↦[a8.view.set]{fullShare} a8.view.writes (Elt F) f L.2)) -∗ K ⟨⟩))
          ⊢ wp frame (wpE (defs₀ (F := F)) Variants.none c none) E (cc0__kernel i a2 h2 a3 h3 a4 h4 a5 h5 a6 h6 a7 h7 a8 h8) K } := by
  refine ⟨(?_, ?_), fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := h2.eq_unread hf0; obtain rfl := h3.eq_unread hf1; obtain rfl := h4.eq_unread hf2
    obtain rfl := h5.eq_unread hf3; obtain rfl := h6.eq_unread hf4
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    iexists _; iexact H6

end Cert.KernelIdeal.Hand

end
-- ==== Proof.KI.RunB.lean ====
/-
  The body of `KernelIdeal`'s kernel at a LATER grid point, run once on any whole staging buffers: the five input blocks
  are read and left as they were; each accumulator block, holding what the point before left, ends with the one piece
  the body stores — that row plus the tile's sum.
-/
import proofs.«173071_j3633542332969_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two accumulator buffers at a later point, with the proof that the body
    runs there: inputs at their contents, accumulators at the running contents `xo5`, `xo6`. -/
noncomputable def kernelRunB (c : Dev nD) (i : grid0.Coords)
    (a2 : Memref sig .tc .vmem S1024x1 .f32) (h2 : a2.IsWhole) (a3 : Memref sig .tc .vmem S1024x1 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1x128 .f32) (h7 : a7.IsWhole)
    (a8 : Memref sig .tc .vmem S1x128 .f32) (h8 : a8.IsWhole) (hc : ¬cond0 i)
    (x0 x1 x2 x3 x4 : Vec F S1024x1 .f32) (xo5 xo6 : Vec F S1x128 .f32) :
    { L : List (View.Piece (Elt F) S1x128 .f32) × List (View.Piece (Elt F) S1x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare xo5 ∗ owns (c : Thread nD τ) a8 fullShare xo6
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4
                ∗ (∃ f, a7.view.loc (c : Thread nD τ) ↦[a7.view.set]{fullShare} a7.view.writes (Elt F) f L.1)
                ∗ (∃ f, a8.view.loc (c : Thread nD τ) ↦[a8.view.set]{fullShare} a8.view.writes (Elt F) f L.2)) -∗ K ⟨⟩))
          ⊢ wp frame (wpE (defs₀ (F := F)) Variants.none c none) E (cc0__kernel i a2 h2 a3 h3 a4 h4 a5 h5 a6 h6 a7 h7 a8 h8) K } := by
  refine ⟨(?_, ?_), fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0; obtain rfl := h3.eq_unread hf1; obtain rfl := h4.eq_unread hf2
    obtain rfl := h5.eq_unread hf3; obtain rfl := h6.eq_unread hf4
    obtain rfl := h7.eq_unread hf5; obtain rfl := h8.eq_unread hf6
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; iexact H5
    iexists _; iexact H6

end Cert.KernelIdeal.Hand

end
-- ==== Proof.KI.Body.lean ====
/-
  The proof data of `KernelIdeal`'s one pipeline and its body obligation.

  After the body at point `t` each of the five input windows' staging buffers still holds the window's block at
  `t`, and the two accumulator buffers hold `outsAt t`: at point 0 what the first-point run leaves over anything, at a
  later point what the later-point run leaves over `outsAt (t - 1)` — the accumulator windows are written back at the
  last point only, so between two points their buffers keep what the body left. The arrays behind windows 0 and 1 are
  one buffer, and so are those behind windows 2 and 3: each pair of windows holds its buffer at the two halves of the
  full share.
-/
import proofs.«173071_j3633542332969_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter here, instantiated by the run
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved since the point before. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched its block index has not moved since the point before. -/
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched its block index has not moved since the point before. -/
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched its block index has not moved since the point before. -/
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is not
    fetched its block index has not moved since the point before. -/
theorem before_in4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the runs leave in the accumulator buffers -/

theorem coverA5 (c : Dev nD) (i : grid0.Coords)
    (a2 : Memref sig .tc .vmem S1024x1 .f32) (h2 : a2.IsWhole) (a3 : Memref sig .tc .vmem S1024x1 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1x128 .f32) (h7 : a7.IsWhole)
    (a8 : Memref sig .tc .vmem S1x128 .f32) (h8 : a8.IsWhole) (hc : cond0 i)
    (x0 x1 x2 x3 x4 : Vec F S1024x1 .f32) (y : S1x128.Idx) :
    ∃ pc ∈ (kernelRunA c i a2 h2 a3 h3 a4 h4 a5 h5 a6 h6 a7 h7 a8 h8 hc x0 x1 x2 x3 x4).1.1, y ∈ pc.1.set :=
  View.cover_of_tiledL (kernelRunA c i a2 h2 a3 h3 a4 h4 a5 h5 a6 h6 a7 h7 a8 h8 hc x0 x1 x2 x3 x4).1.1 S1x128.size (by sl_kernel_rfl) y

theorem coverA6 (c : Dev nD) (i : grid0.Coords)
    (a2 : Memref sig .tc .vmem S1024x1 .f32) (h2 : a2.IsWhole) (a3 : Memref sig .tc .vmem S1024x1 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1x128 .f32) (h7 : a7.IsWhole)
    (a8 : Memref sig .tc .vmem S1x128 .f32) (h8 : a8.IsWhole) (hc : cond0 i)
    (x0 x1 x2 x3 x4 : Vec F S1024x1 .f32) (y : S1x128.Idx) :
    ∃ pc ∈ (kernelRunA c i a2 h2 a3 h3 a4 h4 a5 h5 a6 h6 a7 h7 a8 h8 hc x0 x1 x2 x3 x4).1.2, y ∈ pc.1.set :=
  View.cover_of_tiledL (kernelRunA c i a2 h2 a3 h3 a4 h4 a5 h5 a6 h6 a7 h7 a8 h8 hc x0 x1 x2 x3 x4).1.2 S1x128.size (by sl_kernel_rfl) y

theorem coverB5 (c : Dev nD) (i : grid0.Coords)
    (a2 : Memref sig .tc .vmem S1024x1 .f32) (h2 : a2.IsWhole) (a3 : Memref sig .tc .vmem S1024x1 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1x128 .f32) (h7 : a7.IsWhole)
    (a8 : Memref sig .tc .vmem S1x128 .f32) (h8 : a8.IsWhole) (hc : ¬cond0 i)
    (x0 x1 x2 x3 x4 : Vec F S1024x1 .f32) (xo5 xo6 : Vec F S1x128 .f32) (y : S1x128.Idx) :
    ∃ pc ∈ (kernelRunB c i a2 h2 a3 h3 a4 h4 a5 h5 a6 h6 a7 h7 a8 h8 hc x0 x1 x2 x3 x4 xo5 xo6).1.1, y ∈ pc.1.set :=
  View.cover_of_tiledL (kernelRunB c i a2 h2 a3 h3 a4 h4 a5 h5 a6 h6 a7 h7 a8 h8 hc x0 x1 x2 x3 x4 xo5 xo6).1.1 S1x128.size (by sl_kernel_rfl) y

theorem coverB6 (c : Dev nD) (i : grid0.Coords)
    (a2 : Memref sig .tc .vmem S1024x1 .f32) (h2 : a2.IsWhole) (a3 : Memref sig .tc .vmem S1024x1 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1x128 .f32) (h7 : a7.IsWhole)
    (a8 : Memref sig .tc .vmem S1x128 .f32) (h8 : a8.IsWhole) (hc : ¬cond0 i)
    (x0 x1 x2 x3 x4 : Vec F S1024x1 .f32) (xo5 xo6 : Vec F S1x128 .f32) (y : S1x128.Idx) :
    ∃ pc ∈ (kernelRunB c i a2 h2 a3 h3 a4 h4 a5 h5 a6 h6 a7 h7 a8 h8 hc x0 x1 x2 x3 x4 xo5 xo6).1.2, y ∈ pc.1.set :=
  View.cover_of_tiledL (kernelRunB c i a2 h2 a3 h3 a4 h4 a5 h5 a6 h6 a7 h7 a8 h8 hc x0 x1 x2 x3 x4 xo5 xo6).1.2 S1x128.size (by sl_kernel_rfl) y

/-- What the first-point run leaves in the numerator's accumulator buffer: its pieces read back. -/
def outA5 (c : Dev nD) (t : Fin cfg0.N) (hc : cond0 (grid0.coords t)) (x0 x1 x2 x3 x4 : Vec F S1024x1 .f32) : Vec F S1x128 .f32 :=
  VO5.read (Elt F) (VO5.writes (Elt F) VO5.junk (kernelRunA c (grid0.coords t) (ms0 t) (hs0 t) (ms1 t) (hs1 t) (ms2 t) (hs2 t) (ms3 t) (hs3 t) (ms4 t) (hs4 t) (ms5 t) (hs5 t) (ms6 t) (hs6 t) hc x0 x1 x2 x3 x4).1.1)
/-- The same for the denominator's. -/
def outA6 (c : Dev nD) (t : Fin cfg0.N) (hc : cond0 (grid0.coords t)) (x0 x1 x2 x3 x4 : Vec F S1024x1 .f32) : Vec F S1x128 .f32 :=
  VO6.read (Elt F) (VO6.writes (Elt F) VO6.junk (kernelRunA c (grid0.coords t) (ms0 t) (hs0 t) (ms1 t) (hs1 t) (ms2 t) (hs2 t) (ms3 t) (hs3 t) (ms4 t) (hs4 t) (ms5 t) (hs5 t) (ms6 t) (hs6 t) hc x0 x1 x2 x3 x4).1.2)
/-- What a later-point run leaves in the numerator's accumulator buffer, over the running contents `xo5`, `xo6`. -/
def outB5 (c : Dev nD) (t : Fin cfg0.N) (hc : ¬cond0 (grid0.coords t)) (x0 x1 x2 x3 x4 : Vec F S1024x1 .f32) (xo5 xo6 : Vec F S1x128 .f32) : Vec F S1x128 .f32 :=
  VO5.read (Elt F) (VO5.writes (Elt F) VO5.junk (kernelRunB c (grid0.coords t) (ms0 t) (hs0 t) (ms1 t) (hs1 t) (ms2 t) (hs2 t) (ms3 t) (hs3 t) (ms4 t) (hs4 t) (ms5 t) (hs5 t) (ms6 t) (hs6 t) hc x0 x1 x2 x3 x4 xo5 xo6).1.1)
/-- The same for the denominator's. -/
def outB6 (c : Dev nD) (t : Fin cfg0.N) (hc : ¬cond0 (grid0.coords t)) (x0 x1 x2 x3 x4 : Vec F S1024x1 .f32) (xo5 xo6 : Vec F S1x128 .f32) : Vec F S1x128 .f32 :=
  VO6.read (Elt F) (VO6.writes (Elt F) VO6.junk (kernelRunB c (grid0.coords t) (ms0 t) (hs0 t) (ms1 t) (hs1 t) (ms2 t) (hs2 t) (ms3 t) (hs3 t) (ms4 t) (hs4 t) (ms5 t) (hs5 t) (ms6 t) (hs6 t) hc x0 x1 x2 x3 x4 xo5 xo6).1.2)

/-- THE ACCUMULATION: the two accumulator buffers after the body at position `n`. -/
def outsAt (c : Dev nD) : (n : ℕ) → n < cfg0.N → Vec F S1x128 .f32 × Vec F S1x128 .f32
  | 0, hn => (outA5 c ⟨0, hn⟩ ((hcond0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩),
              outA6 c ⟨0, hn⟩ ((hcond0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 64 = 0 then
      (outA5 c ⟨n + 1, hn⟩ ((hcond0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩),
       outA6 c ⟨n + 1, hn⟩ ((hcond0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      (outB5 c ⟨n + 1, hn⟩ (fun h => h0 ((hcond0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩)
          (outsAt c n (Nat.lt_of_succ_lt hn)).1 (outsAt c n (Nat.lt_of_succ_lt hn)).2,
       outB6 c ⟨n + 1, hn⟩ (fun h => h0 ((hcond0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩)
          (outsAt c n (Nat.lt_of_succ_lt hn)).1 (outsAt c n (Nat.lt_of_succ_lt hn)).2)

theorem outsAt_A5 (c : Dev nD) (t : Fin cfg0.N) (h0 : t.val % 64 = 0) :
    (outsAt V c t.val t.isLt).1 = outA5 c t ((hcond0 t).mpr h0) (iblk V c 0 t) (iblk V c 1 t) (iblk V c 2 t) (iblk V c 3 t) (iblk V c 4 t) := by
  obtain ⟨n, hn⟩ := t
  cases n with
  | zero => exact rfl
  | succ n => exact (congrArg Prod.fst (dif_pos h0)).trans rfl

theorem outsAt_A6 (c : Dev nD) (t : Fin cfg0.N) (h0 : t.val % 64 = 0) :
    (outsAt V c t.val t.isLt).2 = outA6 c t ((hcond0 t).mpr h0) (iblk V c 0 t) (iblk V c 1 t) (iblk V c 2 t) (iblk V c 3 t) (iblk V c 4 t) := by
  obtain ⟨n, hn⟩ := t
  cases n with
  | zero => exact rfl
  | succ n => exact (congrArg Prod.snd (dif_pos h0)).trans rfl

theorem outsAt_B5 (c : Dev nD) (t : Fin cfg0.N) (h0 : ¬t.val % 64 = 0) :
    (outsAt V c t.val t.isLt).1 = outB5 c t (fun h => h0 ((hcond0 t).mp h)) (iblk V c 0 t) (iblk V c 1 t) (iblk V c 2 t) (iblk V c 3 t) (iblk V c 4 t)
      (outsAt V c (t.val - 1) (Nat.lt_of_le_of_lt (Nat.sub_le _ _) t.isLt)).1 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (congrArg Prod.fst (dif_neg h0)).trans rfl

theorem outsAt_B6 (c : Dev nD) (t : Fin cfg0.N) (h0 : ¬t.val % 64 = 0) :
    (outsAt V c t.val t.isLt).2 = outB6 c t (fun h => h0 ((hcond0 t).mp h)) (iblk V c 0 t) (iblk V c 1 t) (iblk V c 2 t) (iblk V c 3 t) (iblk V c 4 t)
      (outsAt V c (t.val - 1) (Nat.lt_of_le_of_lt (Nat.sub_le _ _) t.isLt)).1 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (congrArg Prod.snd (dif_neg h0)).trans rfl

/-! ## The proof data -/

/-- The proof data on core `c`: the arrays as the region finds them; after the body each input's buffer at its block and
    the accumulators' at `outsAt`; the invariant the scoped rest and the generator register; nothing owed; the two
    windows on one array hold it at the two halves of the full share. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
    | ⟨6, _⟩ => (outsAt V c t.val t.isLt).2
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats V 0 c).A w = V c (Pipeline.arrRef spec0 w) := by
  dsimp only [dats]

theorem after0 (c : Dev nD) (t : Fin cfg0.N) : (dats V 0 c).after 0 t = iblk V c 0 t := by dsimp only [dats]
theorem after1 (c : Dev nD) (t : Fin cfg0.N) : (dats V 0 c).after 1 t = iblk V c 1 t := by dsimp only [dats]
theorem after2 (c : Dev nD) (t : Fin cfg0.N) : (dats V 0 c).after 2 t = iblk V c 2 t := by dsimp only [dats]
theorem after3 (c : Dev nD) (t : Fin cfg0.N) : (dats V 0 c).after 3 t = iblk V c 3 t := by dsimp only [dats]
theorem after4 (c : Dev nD) (t : Fin cfg0.N) : (dats V 0 c).after 4 t = iblk V c 4 t := by dsimp only [dats]
theorem after5 (c : Dev nD) (t : Fin cfg0.N) : (dats V 0 c).after 5 t = (outsAt V c t.val t.isLt).1 := by dsimp only [dats]
theorem after6 (c : Dev nD) (t : Fin cfg0.N) : (dats V 0 c).after 6 t = (outsAt V c t.val t.isLt).2 := by dsimp only [dats]

theorem before0 (c : Dev nD) (t : Fin cfg0.N) (d) : (dats V 0 c).before 0 t d = iblk V c 0 t := before_in0 V (dats V 0 c) (A_eq V c 0) (after0 V c) t d
theorem before1 (c : Dev nD) (t : Fin cfg0.N) (d) : (dats V 0 c).before 1 t d = iblk V c 1 t := before_in1 V (dats V 0 c) (A_eq V c 1) (after1 V c) t d
theorem before2 (c : Dev nD) (t : Fin cfg0.N) (d) : (dats V 0 c).before 2 t d = iblk V c 2 t := before_in2 V (dats V 0 c) (A_eq V c 2) (after2 V c) t d
theorem before3 (c : Dev nD) (t : Fin cfg0.N) (d) : (dats V 0 c).before 3 t d = iblk V c 3 t := before_in3 V (dats V 0 c) (A_eq V c 3) (after3 V c) t d
theorem before4 (c : Dev nD) (t : Fin cfg0.N) (d) : (dats V 0 c).before 4 t d = iblk V c 4 t := before_in4 V (dats V 0 c) (A_eq V c 4) (after4 V c) t d

/-- At a later point accumulator window 5's buffer holds what the body left at the point before: it is not the
    first point, and the buffer was not written back in between. -/
theorem before5_B (c : Dev nD) (t : Fin cfg0.N) (h0 : ¬t.val % 64 = 0) (d) :
    (dats V 0 c).before 5 t d = (outsAt V c (t.val - 1) (Nat.lt_of_le_of_lt (Nat.sub_le _ _) t.isLt)).1 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

theorem before6_B (c : Dev nD) (t : Fin cfg0.N) (h0 : ¬t.val % 64 = 0) (d) :
    (dats V 0 c).before 6 t d = (outsAt V c (t.val - 1) (Nat.lt_of_le_of_lt (Nat.sub_le _ _) t.isLt)).2 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats V 0 c).Φ t.castSucc ∗ (dats V 0 c).owesAt () t.castSucc
    ∗ (∃ d, owns (c : Thread nD τ) (ms0 t) fullShare ((dats V 0 c).before 0 t d))
    ∗ (∃ d, owns (c : Thread nD τ) (ms1 t) fullShare ((dats V 0 c).before 1 t d))
    ∗ (∃ d, owns (c : Thread nD τ) (ms2 t) fullShare ((dats V 0 c).before 2 t d))
    ∗ (∃ d, owns (c : Thread nD τ) (ms3 t) fullShare ((dats V 0 c).before 3 t d))
    ∗ (∃ d, owns (c : Thread nD τ) (ms4 t) fullShare ((dats V 0 c).before 4 t d))
    ∗ (∃ d, owns (c : Thread nD τ) (ms5 t) fullShare ((dats V 0 c).before 5 t d))
    ∗ (∃ d, owns (c : Thread nD τ) (ms6 t) fullShare ((dats V 0 c).before 6 t d)))

/-- and what it returns. -/
def bodyPost (c : Dev nD) (t : Fin cfg0.N) : sProp 𝕄 :=
  iprop((dats V 0 c).Φ t.succ ∗ (dats V 0 c).owesAt () t.succ
    ∗ owns (c : Thread nD τ) (ms0 t) fullShare ((dats V 0 c).after 0 t)
    ∗ owns (c : Thread nD τ) (ms1 t) fullShare ((dats V 0 c).after 1 t)
    ∗ owns (c : Thread nD τ) (ms2 t) fullShare ((dats V 0 c).after 2 t)
    ∗ owns (c : Thread nD τ) (ms3 t) fullShare ((dats V 0 c).after 3 t)
    ∗ owns (c : Thread nD τ) (ms4 t) fullShare ((dats V 0 c).after 4 t)
    ∗ owns (c : Thread nD τ) (ms5 t) fullShare ((dats V 0 c).after 5 t)
    ∗ owns (c : Thread nD τ) (ms6 t) fullShare ((dats V 0 c).after 6 t))

set_option maxHeartbeats 1600000 in
/-- The body at any point: the inputs' buffers hold their blocks; the grid decides which run applies; at a later point the
    accumulators hold what the point before left; the invariant passes through unread; the core owes nothing. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dats V 0 c).Φ t.succ = (dats V 0 c).Φ t.castSucc from rfl,
    show (dats V 0 c).owesAt () t.succ = (dats V 0 c).owesAt () t.castSucc from rfl,
    after0, after1, after2, after3, after4, after5, after6]
  have hN : t.val < 64 := lt_of_lt_of_eq t.isLt (show cfg0.N = 64 from N_0)
  by_cases h0 : t.val % 64 = 0
  · rw [outsAt_A5 V c t h0, outsAt_A6 V c t h0]
    unfold outA5 outA6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t) _ _ _ _ _ _ _ _ _ _ _ _ _ _ ((hcond0 t).mpr h0) (iblk V c 0 t) (iblk V c 1 t) (iblk V c 2 t) (iblk V c 3 t) (iblk V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA5 c _ _ _ _ _ _ _ _ _ _ _ _ _ _ _ _ _ _ _ _ _)
    · unfold owns; iexists _; isplitr
      swap; · iexact H6
      ipureintro; exact View.read_writes_of_cover _ _ _ _ _ (coverA6 c _ _ _ _ _ _ _ _ _ _ _ _ _ _ _ _ _ _ _ _ _)
  · rw [outsAt_B5 V c t h0, outsAt_B6 V c t h0]
    simp only [before5_B V c t h0, before6_B V c t h0]
    unfold outB5 outB6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) _ _ _ _ _ _ _ _ _ _ _ _ _ _ (fun h => h0 ((hcond0 t).mp h)) (iblk V c 0 t) (iblk V c 1 t) (iblk V c 2 t) (iblk V c 3 t) (iblk V c 4 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB5 c _ _ _ _ _ _ _ _ _ _ _ _ _ _ _ _ _ _ _ _ _ _ _)
    · unfold owns; iexists _; isplitr
      swap; · iexact H6
      ipureintro; exact View.read_writes_of_cover _ _ _ _ _ (coverB6 c _ _ _ _ _ _ _ _ _ _ _ _ _ _ _ _ _ _ _ _ _ _ _)

/-- The library's body obligation, at every point. -/
theorem body_obligation (c : Dev nD) : BodyObligation (dats (F := F) V 0 c) (defs₀ (F := F)) Variants.none () Set.univ := fun t => by
  rw [bigSep_W0, bigSep_W0]
  exact sound_body V c t

end Cert.KernelIdeal.Hand

end
-- ==== Proof.KI.Launch.lean ====
/-
  The run of `KernelIdeal`'s @main: six host operations, the kernel region, six host operations.

  Between two segments the TensorCore holds every unscoped buffer at a valuation: the launch contents `W0`; after the
  first host stretch `W1`; after the region `W2` — `W1` with the two result arrays at what the pipeline's write-backs
  leave —; after the last stretch `W3`. At the region's entry the arrays behind the windows are taken out of the
  unscoped buffers: windows 0 and 1 share the score array and windows 2 and 3 the time array, each pair splitting its
  buffer's full share in two halves, which are joined again at the exit (an input array ends as it was entered).
  The final state is read off the last valuation.
-/
import proofs.«173071_j3633542332969_1_alg».proof.Proof.KI.Body
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- The two result arrays as the pipeline leaves them. -/
def res5 (c : Dev nD) : Buf (Elt F) ((c : Thread nD τ).loc main_v5_0) := (dats (V1 m ρ) 0 c).arrAt 5 cfg0.N
def res6 (c : Dev nD) : Buf (Elt F) ((c : Thread nD τ).loc main_v5_1) := (dats (V1 m ρ) 0 c).arrAt 6 cfg0.N
/-- At the region's exit: the result arrays at what the pipeline leaves, every other buffer as entered. -/
def W2 (c : Dev nD) : Valuation τ sig (Elt F) :=
  Function.update (Function.update (W1 m ρ c) (Proc.devRef .tc main_v5_0) (res5 m ρ c)) (Proc.devRef .tc main_v5_1) (res6 m ρ c)
abbrev V2 : (c : Dev nD) → (b : Ref sig .tc) → Buf (Elt F) ((c : Thread nD τ).loc b) := fun c b => W2 m ρ c b
/-- After the last host stretch. -/
abbrev W3 : Dev nD → Valuation τ sig (Elt F) := fun c => StableHlo.after hostOps1 (W2 m ρ c)

theorem W2_v5_0 (c : Dev nD) : W2 m ρ c (Proc.devRef .tc main_v5_0) = res5 m ρ c := by
  unfold W2
  rw [Function.update_of_ne (StableHlo.devRef_ne_of_ne (by decide)), Function.update_self]
theorem W2_v5_1 (c : Dev nD) : W2 m ρ c (Proc.devRef .tc main_v5_1) = res6 m ρ c := by
  unfold W2
  rw [Function.update_self]
theorem W2_of_ne (c : Dev nD) (b : Ref sig .tc) (h0 : b ≠ main_v5_0) (h1 : b ≠ main_v5_1) :
    W2 m ρ c (Proc.devRef .tc b) = W1 m ρ c (Proc.devRef .tc b) := by
  unfold W2
  rw [Function.update_of_ne (StableHlo.devRef_ne_of_ne h1), Function.update_of_ne (StableHlo.devRef_ne_of_ne h0)]

/-! ## The arrays behind the windows at the region's two ends -/

/-- The buffers behind the windows' arrays, listed. -/
theorem arrBufs_eq (c : Dev nD) (Vx : (b : Ref sig .tc) → Buf (Elt F) ((c : Thread nD τ).loc b)) :
    (Pipeline.arrBufs (Ix := Unit) (Name := ℕ) (U := UR sig nD τ) (Lvl := ℕ) spec0 c Vx : sProp 𝕄)
      = iprop((((c : Thread nD τ).loc main_arg0) ↦{fullShare} Vx main_arg0) ∗ (((c : Thread nD τ).loc main_v4) ↦{fullShare} Vx main_v4)
          ∗ (((c : Thread nD τ).loc main_v3) ↦{fullShare} Vx main_v3) ∗ (((c : Thread nD τ).loc main_v5_0) ↦{fullShare} Vx main_v5_0)
          ∗ (((c : Thread nD τ).loc main_v5_1) ↦{fullShare} Vx main_v5_1)) := by
  unfold Pipeline.arrBufs
  exact bigSep_eq_bigSepL_of_eq [main_arg0, main_v4, main_v3, main_v5_0, main_v5_1] (by decide) (by decide) _

/-- The pipeline's arrays at contents `Fx`, window by window at its share. -/
theorem arrays_eq (c : Dev nD) (Fx : (w : Fin cfg0.W) → Buf (Elt F) ((cfg0.win w).arr.view.loc (c : Thread nD τ))) :
    ((dats (V1 m ρ) 0 c).arrays Fx : sProp 𝕄)
      = iprop((((c : Thread nD τ).loc main_arg0) ↦{fullShare.left} Fx 0) ∗ (((c : Thread nD τ).loc main_arg0) ↦{fullShare.right} Fx 1)
          ∗ (((c : Thread nD τ).loc main_v4) ↦{fullShare.left} Fx 2) ∗ (((c : Thread nD τ).loc main_v4) ↦{fullShare.right} Fx 3)
          ∗ (((c : Thread nD τ).loc main_v3) ↦{fullShare} Fx 4) ∗ (((c : Thread nD τ).loc main_v5_0) ↦{fullShare} Fx 5)
          ∗ (((c : Thread nD τ).loc main_v5_1) ↦{fullShare} Fx 6)) := by
  unfold Dat.arrays
  rw [bigSep_W0]
  rw [(arr_whole0 0).set_eq_univ, (arr_whole0 2).set_eq_univ, (arr_whole0 4).set_eq_univ, (arr_whole0 5).set_eq_univ,
    (arr_whole0 6).set_eq_univ]
  rfl

/-- ENTRY: the buffers behind the arrays at the entry contents are the pipeline's arrays at their entry contents, the
    score array and the time array each split in two halves. -/
theorem arrays_entry (c : Dev nD) :
    (Pipeline.arrBufs (Ix := Unit) (Name := ℕ) (U := UR sig nD τ) (Lvl := ℕ) spec0 c (V1 m ρ c) : sProp 𝕄)
      ⊢ (dats (V1 m ρ) 0 c).arrays ((dats (V1 m ρ) 0 c).arrAt · 0) := by
  rw [arrBufs_eq, arrays_eq]
  iintro ⟨H0, H4, H3, H50, H51⟩
  ihave H0' := (pointsTo_share (PosShare.mem_left_op_right fullShare)).1 $$ H0
  icases H0' with ⟨H0l, H0r⟩
  ihave H4' := (pointsTo_share (PosShare.mem_left_op_right fullShare)).1 $$ H4
  icases H4' with ⟨H4l, H4r⟩
  isplitl [H0l]; · iexact H0l
  isplitl [H0r]; · iexact H0r
  isplitl [H4l]; · iexact H4l
  isplitl [H4r]; · iexact H4r
  isplitl [H3]; · iexact H3
  isplitl [H50]; · iexact H50
  iexact H51

/-- EXIT: the pipeline's arrays at their final contents are the buffers behind them at the exit contents: an input
    array ends as entered (its two halves joined again), a result array at what the write-backs leave. -/
theorem arrays_exit (c : Dev nD) :
    ((dats (V1 m ρ) 0 c).arrays ((dats (V1 m ρ) 0 c).arrAt · cfg0.N) : sProp 𝕄)
      ⊢ Pipeline.arrBufs (Ix := Unit) (Name := ℕ) (U := UR sig nD τ) (Lvl := ℕ) spec0 c (V2 m ρ c) := by
  rw [arrBufs_eq, arrays_eq]
  rw [(dats (V1 m ρ) 0 c).arrAt_in 0 rfl, (dats (V1 m ρ) 0 c).arrAt_in 1 rfl, (dats (V1 m ρ) 0 c).arrAt_in 2 rfl,
    (dats (V1 m ρ) 0 c).arrAt_in 3 rfl, (dats (V1 m ρ) 0 c).arrAt_in 4 rfl]
  rw [show V2 m ρ c main_arg0 = V1 m ρ c main_arg0 from W2_of_ne m ρ c main_arg0 (by decide) (by decide),
    show V2 m ρ c main_v4 = V1 m ρ c main_v4 from W2_of_ne m ρ c main_v4 (by decide) (by decide),
    show V2 m ρ c main_v3 = V1 m ρ c main_v3 from W2_of_ne m ρ c main_v3 (by decide) (by decide),
    show V2 m ρ c main_v5_0 = res5 m ρ c from W2_v5_0 m ρ c, show V2 m ρ c main_v5_1 = res6 m ρ c from W2_v5_1 m ρ c]
  iintro ⟨H0l, H0r, H4l, H4r, H3, H50, H51⟩
  isplitl [H0l H0r]
  · iapply (pointsTo_share (PosShare.mem_left_op_right fullShare)).2
    isplitl [H0l]; · iexact H0l
    iexact H0r
  isplitl [H4l H4r]
  · iapply (pointsTo_share (PosShare.mem_left_op_right fullShare)).2
    isplitl [H4l]; · iexact H4l
    iexact H4r
  isplitl [H3]; · iexact H3
  isplitl [H50]; · iexact H50
  iexact H51

/-! ## No host operation writes an argument -/

theorem pre_keeps0 (W : Valuation τ sig (Elt F)) : StableHlo.after (hostOps0 (F := F)) W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem pre_keeps1 (W : Valuation τ sig (Elt F)) : StableHlo.after (hostOps0 (F := F)) W (Proc.devRef .tc main_arg1) = W (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem pre_keeps2 (W : Valuation τ sig (Elt F)) : StableHlo.after (hostOps0 (F := F)) W (Proc.devRef .tc main_arg2) = W (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem post_keeps0 (W : Valuation τ sig (Elt F)) : StableHlo.after (hostOps1 (F := F)) W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))
theorem post_keeps1 (W : Valuation τ sig (Elt F)) : StableHlo.after (hostOps1 (F := F)) W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))
theorem post_keeps2 (W : Valuation τ sig (Elt F)) : StableHlo.after (hostOps1 (F := F)) W (Proc.devRef .tc main_arg2) = W (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

theorem W3_arg0 (c : Dev nD) : W3 m ρ c (Proc.devRef .tc main_arg0) = m ((c : Thread nD τ).loc main_arg0) :=
  (post_keeps0 _).trans ((W2_of_ne m ρ c main_arg0 (by decide) (by decide)).trans (pre_keeps0 _))
theorem W3_arg1 (c : Dev nD) : W3 m ρ c (Proc.devRef .tc main_arg1) = m ((c : Thread nD τ).loc main_arg1) :=
  (post_keeps1 _).trans ((W2_of_ne m ρ c main_arg1 (by decide) (by decide)).trans (pre_keeps1 _))
theorem W3_arg2 (c : Dev nD) : W3 m ρ c (Proc.devRef .tc main_arg2) = m ((c : Thread nD τ).loc main_arg2) :=
  (post_keeps2 _).trans ((W2_of_ne m ρ c main_arg2 (by decide) (by decide)).trans (pre_keeps2 _))

/-! ## The segments and the launch -/

abbrev adm : (p : Fin 1) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m ρ c) ∗ ∃ r, prngReg c r)

theorem hrest (c : Dev nD) : ∀ b, b ∉ Finset.univ.image (Pipeline.arrRef spec0) → V2 m ρ c b = V1 m ρ c b :=
  fun b hb => W2_of_ne m ρ c b (fun e => hb (Finset.mem_image.mpr ⟨5, Finset.mem_univ _, e.symm⟩))
    (fun e => hb (Finset.mem_image.mpr ⟨6, Finset.mem_univ _, e.symm⟩))

set_option backward.isDefEq.respectTransparency.types false in
/-- THE REGION over the thread state: entered from every unscoped buffer at `W1`, left at `W2`. -/
def reg0 : Pipeline.RegionSeg (pcfgs (F := F)) adm (dats (V1 m ρ)) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((dats (V1 m ρ) 0 c).arrays ((dats (V1 m ρ) 0 c).arrAt · 0)
            ∗ Pipeline.unscopedRest (Ix := Unit) (Name := ℕ) (U := UR sig nD τ) (Lvl := ℕ) spec0 c (V1 m ρ c)) := by
      rw [Pipeline.unscopedBufs_split₀ cfgs (0 : Fin 1) winFacts₀0.arr_unscoped c (V1 m ρ c)]
      exact sep_mono (arrays_entry m ρ c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats (V1 m ρ) 0 c).Φ 0 = Pipeline.ΦA spec0 c from rfl]; unfold Pipeline.ΦA
    iintro ⟨Hp, -, Hr⟩
    isplitl [Hr]; · iexact Hr
    iexact Hp
  hout c := by
    rw [Pipeline.ownSems0_none, show (dats (V1 m ρ) 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dats (V1 m ρ) 0 c).arrays ((dats (V1 m ρ) 0 c).arrAt · cfg0.N)
          ∗ Pipeline.unscopedRest (Ix := Unit) (Name := ℕ) (U := UR sig nD τ) (Lvl := ℕ) spec0 c (V1 m ρ c))
        ⊢ (unscopedBufs c (V2 m ρ c) : sProp 𝕄) := by
      rw [Pipeline.unscopedBufs_split₀ cfgs (0 : Fin 1) winFacts₀0.arr_unscoped c (V2 m ρ c)]
      refine sep_mono (arrays_exit m ρ c) (Entails.of_eq ?_)
      unfold Pipeline.unscopedRest
      exact bigSep_congr fun b hb => by rw [hrest m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's three segments in order. -/
abbrev segs : List (Pipeline.Seg (pcfgs (F := F)) adm (dats (V1 m ρ)) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final state holds the result at the last valuation's and the three arguments as launched. -/
theorem run_main : θ_run defs (onTc (τ := τ) (main (F := F))) ⟨m, fun _ => 0, ρ⟩ (fun r => ∀ c : Dev nD,
      r.2.mem ((c.tc : Thread nD τ).loc main_v11) = W3 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (dats (V1 m ρ)) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v11 (by decide)),
       (h c _ (mem_uc main_arg0 (by decide))).trans (W3_arg0 m ρ c),
       (h c _ (mem_uc main_arg1 (by decide))).trans (W3_arg1 m ρ c),
       (h c _ (mem_uc main_arg2 (by decide))).trans (W3_arg2 m ρ c)⟩)

end Cert.KernelIdeal.Hand

end
-- ==== Proof.KI.Final.lean ====
/-
  What the two result arrays hold after the run: each accumulator window's one block is its whole array, written back
  at the last of the 64 points only, so the array ends at what the body left in the accumulator there.
-/
import proofs.«173071_j3633542332969_1_alg».proof.Proof.KI.Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The last grid point. -/
def tLast : Fin cfg0.N := ⟨63, by rw [show cfg0.N = 64 from N_0]; decide⟩

/-- What the body leaves in the two accumulators at the last point. -/
def last5 (c : Dev nD) : S1x128.Idx → Elt F .f32 := (outsAt V c tLast.val tLast.isLt).1
def last6 (c : Dev nD) : S1x128.Idx → Elt F .f32 := (outsAt V c tLast.val tLast.isLt).2

/-- The accumulator window 5's block index is (0, 0) at every point: its one block is the whole array. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- What the last point writes back is the whole array at what the body left there. -/
theorem flushed5_eq (c : Dev nD) (t : Fin cfg0.N) (hf : (cfg0.win 5).flush t = true) :
    (dats V 0 c).flushed 5 t = ((cfg0.win 5).blk t).view.read (Elt F) (last5 V c) := by
  have ht : t.val % 64 = 63 := (flush0_5 t).mp hf
  have hN : t.val < 64 := lt_of_lt_of_eq t.isLt (show cfg0.N = 64 from N_0)
  obtain rfl : t = tLast := Fin.ext (by show t.val = 63; omega)
  show (cfg0.win 5).cut (grid0.coords tLast) ((dats V 0 c).after 5 tLast) = _
  rw [after5]
  obtain ⟨e0, e1⟩ := idx5 tLast
  funext j
  show last5 V c j = last5 V c (((cfg0.win 5).blk tLast).view.emb j)
  refine congrArg (last5 V c) ?_
  funext a; apply Fin.ext
  match a with
  | ⟨0, _⟩ => show (j 0).val = win0_5.index tLast (0 : Fin 2) * 1 + 1 * (j 0).val; omega
  | ⟨1, _⟩ => show (j 1).val = win0_5.index tLast (1 : Fin 2) * 128 + 1 * (j 1).val; omega

/-- Every index of the array is in the last point's block. -/
theorem cover5 (c : Dev nD) (i : S1x128.Idx) : ∃ t : Fin cfg0.N, (cfg0.win 5).flush t = true ∧ i ∈ ((cfg0.win 5).blk t).view.set := by
  refine ⟨tLast, (flush0_5 tLast).mpr rfl, ?_⟩
  show i ∈ ((View.whole main_v5_0).slice (win0_5.rect tLast)).set
  rw [View.set_slice_whole, Rect.mem_set_unit]
  obtain ⟨e0, e1⟩ := idx5 tLast
  intro a
  match a with
  | ⟨0, _⟩ =>
    show win0_5.index tLast (0 : Fin 2) * 1 ≤ (i 0).val ∧ (i 0).val < win0_5.index tLast (0 : Fin 2) * 1 + 1
    have hi : (i 0).val < 1 := (i 0).isLt; omega
  | ⟨1, _⟩ =>
    show win0_5.index tLast (1 : Fin 2) * 128 ≤ (i 1).val ∧ (i 1).val < win0_5.index tLast (1 : Fin 2) * 128 + 128
    have hi : (i 1).val < 128 := (i 1).isLt; omega

/-- The array after the run holds what the body left in the accumulator at the last point. -/
theorem arrAt5_last (c : Dev nD) : (dats V 0 c).arrAt 5 cfg0.N = last5 V c :=
  (dats V 0 c).arrAt_eq_of_cover 5 (last5 V c) (fun t hf => flushed5_eq V c t hf) (cover5 c)

/-- The accumulator window 6's block index is (0, 0) at every point: its one block is the whole array. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- What the last point writes back is the whole array at what the body left there. -/
theorem flushed6_eq (c : Dev nD) (t : Fin cfg0.N) (hf : (cfg0.win 6).flush t = true) :
    (dats V 0 c).flushed 6 t = ((cfg0.win 6).blk t).view.read (Elt F) (last6 V c) := by
  have ht : t.val % 64 = 63 := (flush0_6 t).mp hf
  have hN : t.val < 64 := lt_of_lt_of_eq t.isLt (show cfg0.N = 64 from N_0)
  obtain rfl : t = tLast := Fin.ext (by show t.val = 63; omega)
  show (cfg0.win 6).cut (grid0.coords tLast) ((dats V 0 c).after 6 tLast) = _
  rw [after6]
  obtain ⟨e0, e1⟩ := idx6 tLast
  funext j
  show last6 V c j = last6 V c (((cfg0.win 6).blk tLast).view.emb j)
  refine congrArg (last6 V c) ?_
  funext a; apply Fin.ext
  match a with
  | ⟨0, _⟩ => show (j 0).val = win0_6.index tLast (0 : Fin 2) * 1 + 1 * (j 0).val; omega
  | ⟨1, _⟩ => show (j 1).val = win0_6.index tLast (1 : Fin 2) * 128 + 1 * (j 1).val; omega

/-- Every index of the array is in the last point's block. -/
theorem cover6 (c : Dev nD) (i : S1x128.Idx) : ∃ t : Fin cfg0.N, (cfg0.win 6).flush t = true ∧ i ∈ ((cfg0.win 6).blk t).view.set := by
  refine ⟨tLast, (flush0_6 tLast).mpr rfl, ?_⟩
  show i ∈ ((View.whole main_v5_1).slice (win0_6.rect tLast)).set
  rw [View.set_slice_whole, Rect.mem_set_unit]
  obtain ⟨e0, e1⟩ := idx6 tLast
  intro a
  match a with
  | ⟨0, _⟩ =>
    show win0_6.index tLast (0 : Fin 2) * 1 ≤ (i 0).val ∧ (i 0).val < win0_6.index tLast (0 : Fin 2) * 1 + 1
    have hi : (i 0).val < 1 := (i 0).isLt; omega
  | ⟨1, _⟩ =>
    show win0_6.index tLast (1 : Fin 2) * 128 ≤ (i 1).val ∧ (i 1).val < win0_6.index tLast (1 : Fin 2) * 128 + 128
    have hi : (i 1).val < 128 := (i 1).isLt; omega

/-- The array after the run holds what the body left in the accumulator at the last point. -/
theorem arrAt6_last (c : Dev nD) : (dats V 0 c).arrAt 6 cfg0.N = last6 V c :=
  (dats V 0 c).arrAt_eq_of_cover 6 (last6 V c) (fun t hf => flushed6_eq V c t hf) (cover6 c)

end Cert.KernelIdeal.Hand

end
-- ==== Proof.PairSpec.lean ====
/-
  The pairwise ranking loss, as one function of the three argument arrays read as families over the 8192 subjects:
  a score `z a`, a time `t a` and an event indicator `e a`.

  The ordered pair (a, b) is comparable when a's time is strictly before b's; it then carries the weight `e a`
  (`weight`), and contributes `weight · σ(z a − z b)` (`term`, σ the logistic function). The loss is minus the sum of
  the contributions over all ordered pairs, divided by the sum of the weights (`num`, `den`, `loss`).

  The pair matrix is also read tile by tile: tile (i, j) holds the pairs whose first subject is in the i-th block of
  1024 subjects and whose second is in the j-th (`row`, `tileNum`, `tileDen`); `accNum n` and `accDen n` are the sums
  of the first `n` tiles in row-major order of (i, j), the order in which a grid of 8 × 8 points visits them.
-/
import Idealize.ShloMosaic.PureOps.Ideal
import Idealize.ShloMosaic.PureOps.Ideal.Laws
import Idealize.ShloMosaic.Lib.ValueIdx

noncomputable section

namespace Cert.Surv

open Idealize.ShloMosaic

/-- The weight of the ordered pair (a, b): a's event indicator when a's time is strictly before b's, else zero. -/
def weight (ta tb e : EReal) : EReal := Scalar.select (Ideal.cmp .olt ta tb) e 0

/-- The pair's contribution: its weight times the logistic function of the score difference. -/
def term (za zb ta tb e : EReal) : EReal := weight ta tb e * Ideal.logistic (za - zb)

/-- The event indicator of a censoring word: one minus the word read as a signed integer. -/
def event (c : BitVec 32) : EReal := (1 : EReal) - ((c.toInt : ℝ) : EReal)

/-- The sum of the contributions over all ordered pairs. -/
def num (z t e : Fin 8192 → EReal) : EReal := ∑ a : Fin 8192, ∑ b : Fin 8192, term (z a) (z b) (t a) (t b) (e a)

/-- The sum of the weights over all ordered pairs. -/
def den (t e : Fin 8192 → EReal) : EReal := ∑ a : Fin 8192, ∑ b : Fin 8192, weight (t a) (t b) (e a)

/-- The loss: minus the first sum, divided by the second. -/
def loss (z t e : Fin 8192 → EReal) : EReal := Ideal.div (-(num z t e)) (den t e)

/-- Subject `r` of block `i`: the blocks are 1024 consecutive subjects. -/
def row (i : Fin 8) (r : Fin 1024) : Fin 8192 := ⟨i.val * 1024 + r.val, by omega⟩

/-- The contributions of tile (i, j), rows first. -/
def tileNum (z t e : Fin 8192 → EReal) (i j : Fin 8) : EReal :=
  ∑ r : Fin 1024, ∑ s : Fin 1024, term (z (row i r)) (z (row j s)) (t (row i r)) (t (row j s)) (e (row i r))

/-- The weights of tile (i, j), rows first. -/
def tileDen (t e : Fin 8192 → EReal) (i j : Fin 8) : EReal :=
  ∑ r : Fin 1024, ∑ s : Fin 1024, weight (t (row i r)) (t (row j s)) (e (row i r))

/-- The tile the `n`-th point of the 8 × 8 grid works on: (n / 8, n % 8). -/
def tileI (n : ℕ) : Fin 8 := ⟨n / 8 % 8, Nat.mod_lt _ (by decide)⟩
def tileJ (n : ℕ) : Fin 8 := ⟨n % 8, Nat.mod_lt _ (by decide)⟩

/-- The contributions of the first `n` tiles, accumulated from zero in the grid's order. -/
def accNum (z t e : Fin 8192 → EReal) : ℕ → EReal
  | 0 => 0
  | n + 1 => accNum z t e n + tileNum z t e (tileI n) (tileJ n)

/-- The weights of the first `n` tiles, accumulated from zero in the grid's order. -/
def accDen (t e : Fin 8192 → EReal) : ℕ → EReal
  | 0 => 0
  | n + 1 => accDen t e n + tileDen t e (tileI n) (tileJ n)

end Cert.Surv

end
-- ==== Proof.KI.Blocks.lean ====
/-
  Where the body's five input blocks come from.

  The grid has 8 × 8 points; point `t` has coordinates (t / 8, t % 8) and works on the tile whose row block is block
  t / 8 of the 8192 subjects and whose column block is block t % 8. Three of the input windows follow the row block
  (the scores, the times and the event indicators of the tile's rows) and two follow the column block (the scores and
  the times of its columns); a block is 1024 consecutive rows of a one-column array. So row `r` of a window's block at
  point `t` is its array at row (block index) · 1024 + r: subject `row (tileI t) r` for the row windows, subject
  `row (tileJ t) s` for the column windows. The two windows of the scores read one array, and so do the two of the times.
-/
import proofs.«173071_j3633542332969_1_alg».proof.Proof.KI.Body
import proofs.«173071_j3633542332969_1_alg».proof.Proof.PairSpec
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

-- the TensorCore's buffer contents when the region is entered
variable (V : (c : Dev nD) → (b : Ref sig .tc) → Buf (Elt F) ((c : Thread nD τ).loc b))

/-! ## Where each input window's block sits -/

/-- The windows that follow the tile's row block (0, 2, 4) are, at point `t`, at block `t / 8` of their arrays' rows and
    block 0 of the one column; decided over the grid. -/
theorem idx_row : ∀ t : Fin cfg0.N,
    win0_0.index t (0 : Fin 2) = t.val / 8 ∧ win0_0.index t (1 : Fin 2) = 0
    ∧ win0_2.index t (0 : Fin 2) = t.val / 8 ∧ win0_2.index t (1 : Fin 2) = 0
    ∧ win0_4.index t (0 : Fin 2) = t.val / 8 ∧ win0_4.index t (1 : Fin 2) = 0 :=
  (by decide +kernel : ∀ t : Fin grid0.N, _)

/-- The windows that follow the tile's column block (1, 3) are at block `t % 8`; decided over the grid. -/
theorem idx_col : ∀ t : Fin cfg0.N,
    win0_1.index t (0 : Fin 2) = t.val % 8 ∧ win0_1.index t (1 : Fin 2) = 0
    ∧ win0_3.index t (0 : Fin 2) = t.val % 8 ∧ win0_3.index t (1 : Fin 2) = 0 :=
  (by decide +kernel : ∀ t : Fin grid0.N, _)

/-! ## Each input window's block, read at a row -/

/-- The scores of the tile's row block: row `r` of window 0's block is the score of subject `r` of block `t / 8`. -/
theorem iblk0_apply (c : Dev nD) (t : Fin cfg0.N) (r : Fin 1024) :
    iblk V c 0 t (ix2 r (0 : Fin 1)) = V c main_arg0 (ix2 (Cert.Surv.row (Cert.Surv.tileI t.val) r) (0 : Fin 1)) := by
  show V c main_arg0 (((cfg0.win 0).blk t).view.emb (ix2 r (0 : Fin 1))) = V c main_arg0 _
  refine congrArg (V c main_arg0) (funext fun a => Fin.ext ?_)
  have hN : t.val < 64 := lt_of_lt_of_eq t.isLt (show cfg0.N = 64 from N_0)
  obtain ⟨e0, e1, -, -, -, -⟩ := idx_row t
  match a with
  | ⟨0, _⟩ =>
    show win0_0.index t (0 : Fin 2) * 1024 + 1 * r.val = t.val / 8 % 8 * 1024 + r.val
    omega
  | ⟨1, _⟩ =>
    show win0_0.index t (1 : Fin 2) * 1 + 1 * 0 = 0
    omega

/-- The scores of the tile's column block: row `s` of window 1's block is the score of subject `s` of block `t % 8`. -/
theorem iblk1_apply (c : Dev nD) (t : Fin cfg0.N) (s : Fin 1024) :
    iblk V c 1 t (ix2 s (0 : Fin 1)) = V c main_arg0 (ix2 (Cert.Surv.row (Cert.Surv.tileJ t.val) s) (0 : Fin 1)) := by
  show V c main_arg0 (((cfg0.win 1).blk t).view.emb (ix2 s (0 : Fin 1))) = V c main_arg0 _
  refine congrArg (V c main_arg0) (funext fun a => Fin.ext ?_)
  obtain ⟨e0, e1, -, -⟩ := idx_col t
  match a with
  | ⟨0, _⟩ =>
    show win0_1.index t (0 : Fin 2) * 1024 + 1 * s.val = t.val % 8 * 1024 + s.val
    omega
  | ⟨1, _⟩ =>
    show win0_1.index t (1 : Fin 2) * 1 + 1 * 0 = 0
    omega

/-- The times of the tile's row block. -/
theorem iblk2_apply (c : Dev nD) (t : Fin cfg0.N) (r : Fin 1024) :
    iblk V c 2 t (ix2 r (0 : Fin 1)) = V c main_v4 (ix2 (Cert.Surv.row (Cert.Surv.tileI t.val) r) (0 : Fin 1)) := by
  show V c main_v4 (((cfg0.win 2).blk t).view.emb (ix2 r (0 : Fin 1))) = V c main_v4 _
  refine congrArg (V c main_v4) (funext fun a => Fin.ext ?_)
  have hN : t.val < 64 := lt_of_lt_of_eq t.isLt (show cfg0.N = 64 from N_0)
  obtain ⟨-, -, e0, e1, -, -⟩ := idx_row t
  match a with
  | ⟨0, _⟩ =>
    show win0_2.index t (0 : Fin 2) * 1024 + 1 * r.val = t.val / 8 % 8 * 1024 + r.val
    omega
  | ⟨1, _⟩ =>
    show win0_2.index t (1 : Fin 2) * 1 + 1 * 0 = 0
    omega

/-- The times of the tile's column block. -/
theorem iblk3_apply (c : Dev nD) (t : Fin cfg0.N) (s : Fin 1024) :
    iblk V c 3 t (ix2 s (0 : Fin 1)) = V c main_v4 (ix2 (Cert.Surv.row (Cert.Surv.tileJ t.val) s) (0 : Fin 1)) := by
  show V c main_v4 (((cfg0.win 3).blk t).view.emb (ix2 s (0 : Fin 1))) = V c main_v4 _
  refine congrArg (V c main_v4) (funext fun a => Fin.ext ?_)
  obtain ⟨-, -, e0, e1⟩ := idx_col t
  match a with
  | ⟨0, _⟩ =>
    show win0_3.index t (0 : Fin 2) * 1024 + 1 * s.val = t.val % 8 * 1024 + s.val
    omega
  | ⟨1, _⟩ =>
    show win0_3.index t (1 : Fin 2) * 1 + 1 * 0 = 0
    omega

/-- The event indicators of the tile's row block. -/
theorem iblk4_apply (c : Dev nD) (t : Fin cfg0.N) (r : Fin 1024) :
    iblk V c 4 t (ix2 r (0 : Fin 1)) = V c main_v3 (ix2 (Cert.Surv.row (Cert.Surv.tileI t.val) r) (0 : Fin 1)) := by
  show V c main_v3 (((cfg0.win 4).blk t).view.emb (ix2 r (0 : Fin 1))) = V c main_v3 _
  refine congrArg (V c main_v3) (funext fun a => Fin.ext ?_)
  have hN : t.val < 64 := lt_of_lt_of_eq t.isLt (show cfg0.N = 64 from N_0)
  obtain ⟨-, -, -, -, e0, e1⟩ := idx_row t
  match a with
  | ⟨0, _⟩ =>
    show win0_4.index t (0 : Fin 2) * 1024 + 1 * r.val = t.val / 8 % 8 * 1024 + r.val
    omega
  | ⟨1, _⟩ =>
    show win0_4.index t (1 : Fin 2) * 1 + 1 * 0 = 0
    omega

end Cert.KernelIdeal.Hand

end
-- ==== Proof.KI.Pieces.lean ====
/-
  What the body's two runs leave in the accumulator buffers, as values.

  Each accumulator buffer is one row of 128 lanes, and every store of the body into it writes the whole row, so after a
  run the buffer holds the payload of the LAST store, whatever came before; and a load of the whole row, made after one
  such store, reads that store's payload. At the first grid point the body stores the zero row, loads it back, and
  stores that row plus the tile's sum: the numerator's buffer ends at (zero row) + (sum of the tile's contributions),
  the denominator's at (zero row) + (sum of the tile's weights). At a later point there is only the second store, over
  the row the point before left: the buffers end at (running row) + (the tile's sum). The tile's sums are functions of
  the five input blocks alone, which the body reads whole and leaves as they were.
-/
import proofs.«173071_j3633542332969_1_alg».proof.Proof.KI.Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every load and store of the body starts at the origin of its buffer. -/
theorem pieces_origin : (![0, 0] : Fin 2 → Nat) = fun _ => 0 := funext fun a => by fin_cases a <;> rfl

/-! ## The pieces, on any whole buffers -/

/-- At the first point the numerator's pieces are the zero row and then, last, the zero row read back plus the sum of
    the tile's contributions: the last one is what the buffer holds. -/
theorem piecesA5_canon (c : Dev nD) (i : grid0.Coords)
    (a2 : Memref sig .tc .vmem S1024x1 .f32) (h2 : a2.IsWhole) (a3 : Memref sig .tc .vmem S1024x1 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1x128 .f32) (h7 : a7.IsWhole)
    (a8 : Memref sig .tc .vmem S1x128 .f32) (h8 : a8.IsWhole) (hc : cond0 i)
    (x0 x1 x2 x3 x4 : Vec F S1024x1 .f32) :
    View.canon (kernelRunA c i a2 h2 a3 h3 a4 h4 a5 h5 a6 h6 a7 h7 a8 h8 hc x0 x1 x2 x3 x4).1.1
      = k0_pay1 (k0_pay6 x0 x1 x2 x3 x4) (k0_pay8 (k0_pay3 (F := F))) := by
  unfold kernelRunA
  dsimp only
  sl_unfold_words
  rw [View.canon_cons_unit_zero (S := S1x128) pieces_origin, View.readCov_unit_zero (S := S1x128) _ pieces_origin]
  simp only [View.readAt_eq_ld, h2.read_unread, h3.read_unread, h4.read_unread, h5.read_unread, h6.read_unread,
    View.ld_unit_zero (S := S1024x1) pieces_origin, View.ld_unit_zero (S := S1x128) pieces_origin]

/-- At the first point the denominator's pieces are the zero row and then, last, the zero row read back plus the sum of
    the tile's weights. -/
theorem piecesA6_canon (c : Dev nD) (i : grid0.Coords)
    (a2 : Memref sig .tc .vmem S1024x1 .f32) (h2 : a2.IsWhole) (a3 : Memref sig .tc .vmem S1024x1 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1x128 .f32) (h7 : a7.IsWhole)
    (a8 : Memref sig .tc .vmem S1x128 .f32) (h8 : a8.IsWhole) (hc : cond0 i)
    (x0 x1 x2 x3 x4 : Vec F S1024x1 .f32) :
    View.canon (kernelRunA c i a2 h2 a3 h3 a4 h4 a5 h5 a6 h6 a7 h7 a8 h8 hc x0 x1 x2 x3 x4).1.2
      = k0_pay2 (k0_pay7 x2 x3 x4) (k0_pay4 (F := F)) := by
  unfold kernelRunA
  dsimp only
  sl_unfold_words
  rw [View.canon_cons_unit_zero (S := S1x128) pieces_origin, View.readCov_unit_zero (S := S1x128) _ pieces_origin]
  simp only [View.readAt_eq_ld, h2.read_unread, h3.read_unread, h4.read_unread, h5.read_unread, h6.read_unread,
    View.ld_unit_zero (S := S1024x1) pieces_origin, View.ld_unit_zero (S := S1x128) pieces_origin]

/-- At a later point the numerator's one piece is the running row plus the sum of the tile's contributions. -/
theorem piecesB5_canon (c : Dev nD) (i : grid0.Coords)
    (a2 : Memref sig .tc .vmem S1024x1 .f32) (h2 : a2.IsWhole) (a3 : Memref sig .tc .vmem S1024x1 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1x128 .f32) (h7 : a7.IsWhole)
    (a8 : Memref sig .tc .vmem S1x128 .f32) (h8 : a8.IsWhole) (hc : ¬cond0 i)
    (x0 x1 x2 x3 x4 : Vec F S1024x1 .f32) (xo5 xo6 : Vec F S1x128 .f32) :
    View.canon (kernelRunB c i a2 h2 a3 h3 a4 h4 a5 h5 a6 h6 a7 h7 a8 h8 hc x0 x1 x2 x3 x4 xo5 xo6).1.1
      = k0_pay1 (k0_pay6 x0 x1 x2 x3 x4) (k0_pay8 xo5) := by
  unfold kernelRunB
  dsimp only
  sl_unfold_words
  rw [View.canon_unit_zero (S := S1x128) pieces_origin]
  simp only [View.readAt_eq_ld, h2.read_unread, h3.read_unread, h4.read_unread, h5.read_unread, h6.read_unread,
    h7.read_unread, h8.read_unread, View.ld_unit_zero (S := S1024x1) pieces_origin, View.ld_unit_zero (S := S1x128) pieces_origin]

/-- At a later point the denominator's one piece is the running row plus the sum of the tile's weights. -/
theorem piecesB6_canon (c : Dev nD) (i : grid0.Coords)
    (a2 : Memref sig .tc .vmem S1024x1 .f32) (h2 : a2.IsWhole) (a3 : Memref sig .tc .vmem S1024x1 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1x128 .f32) (h7 : a7.IsWhole)
    (a8 : Memref sig .tc .vmem S1x128 .f32) (h8 : a8.IsWhole) (hc : ¬cond0 i)
    (x0 x1 x2 x3 x4 : Vec F S1024x1 .f32) (xo5 xo6 : Vec F S1x128 .f32) :
    View.canon (kernelRunB c i a2 h2 a3 h3 a4 h4 a5 h5 a6 h6 a7 h7 a8 h8 hc x0 x1 x2 x3 x4 xo5 xo6).1.2
      = k0_pay2 (k0_pay7 x2 x3 x4) xo6 := by
  unfold kernelRunB
  dsimp only
  sl_unfold_words
  rw [View.canon_unit_zero (S := S1x128) pieces_origin]
  simp only [View.readAt_eq_ld, h2.read_unread, h3.read_unread, h4.read_unread, h5.read_unread, h6.read_unread,
    h7.read_unread, h8.read_unread, View.ld_unit_zero (S := S1024x1) pieces_origin, View.ld_unit_zero (S := S1x128) pieces_origin]

/-! ## The accumulator buffers after the body at a grid point -/

/-- After the first point the numerator's buffer holds the zero row plus the sum of the tile's contributions. -/
theorem outA5_eq (c : Dev nD) (t : Fin cfg0.N) (hc : cond0 (grid0.coords t)) (x0 x1 x2 x3 x4 : Vec F S1024x1 .f32) :
    outA5 (F := F) c t hc x0 x1 x2 x3 x4 = k0_pay1 (k0_pay6 x0 x1 x2 x3 x4) (k0_pay8 (k0_pay3 (F := F))) := by
  unfold outA5
  rw [View.read_writes_eq_canon _ _ _ (coverA5 c (grid0.coords t) (ms0 t) (hs0 t) (ms1 t) (hs1 t) (ms2 t) (hs2 t) (ms3 t) (hs3 t) (ms4 t) (hs4 t) (ms5 t) (hs5 t) (ms6 t) (hs6 t) hc x0 x1 x2 x3 x4)]
  exact piecesA5_canon c (grid0.coords t) (ms0 t) (hs0 t) (ms1 t) (hs1 t) (ms2 t) (hs2 t) (ms3 t) (hs3 t) (ms4 t) (hs4 t) (ms5 t) (hs5 t) (ms6 t) (hs6 t) hc x0 x1 x2 x3 x4

/-- After the first point the denominator's buffer holds the zero row plus the sum of the tile's weights. -/
theorem outA6_eq (c : Dev nD) (t : Fin cfg0.N) (hc : cond0 (grid0.coords t)) (x0 x1 x2 x3 x4 : Vec F S1024x1 .f32) :
    outA6 (F := F) c t hc x0 x1 x2 x3 x4 = k0_pay2 (k0_pay7 x2 x3 x4) (k0_pay4 (F := F)) := by
  unfold outA6
  rw [View.read_writes_eq_canon _ _ _ (coverA6 c (grid0.coords t) (ms0 t) (hs0 t) (ms1 t) (hs1 t) (ms2 t) (hs2 t) (ms3 t) (hs3 t) (ms4 t) (hs4 t) (ms5 t) (hs5 t) (ms6 t) (hs6 t) hc x0 x1 x2 x3 x4)]
  exact piecesA6_canon c (grid0.coords t) (ms0 t) (hs0 t) (ms1 t) (hs1 t) (ms2 t) (hs2 t) (ms3 t) (hs3 t) (ms4 t) (hs4 t) (ms5 t) (hs5 t) (ms6 t) (hs6 t) hc x0 x1 x2 x3 x4

/-- After a later point the numerator's buffer holds the running row plus the sum of the tile's contributions. -/
theorem outB5_eq (c : Dev nD) (t : Fin cfg0.N) (hc : ¬cond0 (grid0.coords t)) (x0 x1 x2 x3 x4 : Vec F S1024x1 .f32) (xo5 xo6 : Vec F S1x128 .f32) :
    outB5 (F := F) c t hc x0 x1 x2 x3 x4 xo5 xo6 = k0_pay1 (k0_pay6 x0 x1 x2 x3 x4) (k0_pay8 xo5) := by
  unfold outB5
  rw [View.read_writes_eq_canon _ _ _ (coverB5 c (grid0.coords t) (ms0 t) (hs0 t) (ms1 t) (hs1 t) (ms2 t) (hs2 t) (ms3 t) (hs3 t) (ms4 t) (hs4 t) (ms5 t) (hs5 t) (ms6 t) (hs6 t) hc x0 x1 x2 x3 x4 xo5 xo6)]
  exact piecesB5_canon c (grid0.coords t) (ms0 t) (hs0 t) (ms1 t) (hs1 t) (ms2 t) (hs2 t) (ms3 t) (hs3 t) (ms4 t) (hs4 t) (ms5 t) (hs5 t) (ms6 t) (hs6 t) hc x0 x1 x2 x3 x4 xo5 xo6

/-- After a later point the denominator's buffer holds the running row plus the sum of the tile's weights. -/
theorem outB6_eq (c : Dev nD) (t : Fin cfg0.N) (hc : ¬cond0 (grid0.coords t)) (x0 x1 x2 x3 x4 : Vec F S1024x1 .f32) (xo5 xo6 : Vec F S1x128 .f32) :
    outB6 (F := F) c t hc x0 x1 x2 x3 x4 xo5 xo6 = k0_pay2 (k0_pay7 x2 x3 x4) xo6 := by
  unfold outB6
  rw [View.read_writes_eq_canon _ _ _ (coverB6 c (grid0.coords t) (ms0 t) (hs0 t) (ms1 t) (hs1 t) (ms2 t) (hs2 t) (ms3 t) (hs3 t) (ms4 t) (hs4 t) (ms5 t) (hs5 t) (ms6 t) (hs6 t) hc x0 x1 x2 x3 x4 xo5 xo6)]
  exact piecesB6_canon c (grid0.coords t) (ms0 t) (hs0 t) (ms1 t) (hs1 t) (ms2 t) (hs2 t) (ms3 t) (hs3 t) (ms4 t) (hs4 t) (ms5 t) (hs5 t) (ms6 t) (hs6 t) hc x0 x1 x2 x3 x4 xo5 xo6

end Cert.KernelIdeal.Hand

end
-- ==== Proof.TileValue.lean ====
/-
  One tile of the pair matrix, as the kernel's body computes it, read entry by entry.

  The body holds five columns of 1024 numbers: the scores and the times of the tile's row block, the scores and the
  times of its column block, and the event indicators of the row block. It spreads the row block's columns along the
  rows of a 1024 × 1024 matrix and the column block's, transposed, along its columns, so that entry (r, s) sees subject
  r of the row block and subject s of the column block. There it forms the pair's weight (the event indicator of r
  where r's time is strictly before s's, else zero) and the weight times the logistic function of the score
  difference, and it sums each matrix first along every row and then down the resulting column. So the two numbers it
  produces are the double sums over (r, s) of the pair's contribution (`pay6_apply`) and of the pair's weight
  (`pay7_apply`): the tile's numerator and denominator.

  The remaining values are the bookkeeping of the two running totals, each kept as a row of 128 equal lanes: a total
  starts from zero (`pay3_apply`, `pay4_apply`), is read back unchanged (`pay8_eq`), and is replaced by itself plus the
  tile's number in every lane (`pay1_apply`, `pay2_apply`).

  Stated first, in general, are the two facts of arrangement the reading needs (a column [a, 1] spread to [a, b] reads
  its row's one entry; a vector [a] viewed as a column [a, 1] reads the same entry) and the two sums, along a row of
  the square matrix and down a column, each as the sum over the coordinate summed out.
-/
import proofs.«173071_j3633542332969_1_alg».proof.Proof.Gen.KernelIdeal.Skeleton
import proofs.«173071_j3633542332969_1_alg».proof.Proof.PairSpec
import Idealize.ShloMosaic.Lib.ValueIdx
import Idealize.ShloMosaic.Lib.ValueLayout
import Idealize.ShloMosaic.Lib.Pipeline.Value
import Idealize.ShloMosaic.PureOps.Ideal.Laws

noncomputable section

namespace Cert.Surv.Tile

open Idealize.ShloMosaic Idealize.ShloMosaic.ValueIdx Cert.KernelIdeal Cert.KernelIdeal.Gen

variable {α : Type}

/-! ## The column forms of the layout operations -/

/-- An `[a, 1]` array broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The two sums of a tile -/

/-- The sum along the rows of a 1024 × 1024 array: at `r`, the sum over the columns `s` of the entry `(r, s)`. -/
theorem rowSum_apply (src : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ s : Fin 1024, src (ix2 r s) :=
  (Ideal.multiReduction_add_single src _ h hφ hacc (ix1 r)).trans
    (Finset.sum_congr rfl fun s _ => congrArg src (funext fun c => by
      match c with
      | ⟨0, _⟩ => exact Fin.ext rfl
      | ⟨1, _⟩ => exact Fin.ext rfl))

/-- The sum down a column of 1024 entries: the sum over the rows `r` of the entry `(r, 0)`. -/
theorem colSum_apply (src : FVec Ideal S1024x1 .f32) (h : S1024x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ r : Fin 1024, src (ix2 r (0 : Fin 1)) :=
  (Ideal.multiReduction_add_single src _ h hφ hacc (ix1 (0 : Fin 1))).trans
    (Finset.sum_congr rfl fun r _ => congrArg src (funext fun c => by
      match c with
      | ⟨0, _⟩ => exact Fin.ext rfl
      | ⟨1, _⟩ => exact Fin.ext rfl))

/-! ## The payloads at an index -/

/-- The weight matrix of a tile: at `(r, s)` the weight of the pair (row subject `r`, column subject `s`). -/
theorem pay5_apply (x2 x3 x4 : Vec Ideal S1024x1 .f32) (r s : Fin 1024) :
    k0_pay5 (F := Ideal) x2 x3 x4 (ix2 r s)
      = Cert.Surv.weight (x2 (ix2 r (0 : Fin 1))) (x3 (ix2 s (0 : Fin 1))) (x4 (ix2 r (0 : Fin 1))) := by
  unfold k0_pay5
  simp only [shapeCast_self]
  rw [select_apply, cmpf_apply, broadcastTo_a1_ab_apply, broadcastTo_1b_ab_apply, transpose_ix2_apply,
    broadcastTo_a1_ab_apply, broadcastTo_a1_ab_apply, broadcast_apply, Ideal.cmpf_def]
  show Scalar.select _ _ (Ideal.ofBits .f32 0x00000000#32) = _
  rw [Ideal.ofBits_zero_f32]
  rfl

/-- The numerator of one tile: rows `r`, columns `s`; `x0` the scores of the row block, `x1` the scores of the column
block, `x2` the times of the row block, `x3` the times of the column block, `x4` the events of the row block. -/
theorem pay6_apply (x0 x1 x2 x3 x4 : Vec Ideal S1024x1 .f32) :
    k0_pay6 (F := Ideal) x0 x1 x2 x3 x4 (ix1 (0 : Fin 1))
      = ∑ r : Fin 1024, ∑ s : Fin 1024,
          Cert.Surv.term (x0 (ix2 r 0)) (x1 (ix2 s 0)) (x2 (ix2 r 0)) (x3 (ix2 s 0)) (x4 (ix2 r 0)) := by
  unfold k0_pay6
  refine (colSum_apply _ _ _ _).trans (Finset.sum_congr rfl fun r _ => ?_)
  refine (shapeCast_a_a1_apply _ _ r 0).trans ?_
  refine (rowSum_apply _ _ _ _ r).trans (Finset.sum_congr rfl fun s _ => ?_)
  rw [mulf_apply, pay5_apply]
  show _ * FloatOps.logistic (subf _ _ (ix2 r s)) = _
  rw [subf_apply, broadcastTo_a1_ab_apply, broadcastTo_1b_ab_apply, transpose_ix2_apply, Ideal.logistic_def]
  rfl

/-- The denominator of one tile: the sum of the weights of its pairs. -/
theorem pay7_apply (x2 x3 x4 : Vec Ideal S1024x1 .f32) :
    k0_pay7 (F := Ideal) x2 x3 x4 (ix1 (0 : Fin 1))
      = ∑ r : Fin 1024, ∑ s : Fin 1024, Cert.Surv.weight (x2 (ix2 r 0)) (x3 (ix2 s 0)) (x4 (ix2 r 0)) := by
  unfold k0_pay7
  refine (colSum_apply _ _ _ _).trans (Finset.sum_congr rfl fun r _ => ?_)
  refine (shapeCast_a_a1_apply _ _ r 0).trans ?_
  refine (rowSum_apply _ _ _ _ r).trans (Finset.sum_congr rfl fun s _ => ?_)
  exact pay5_apply x2 x3 x4 r s

/-- The first accumulator's new row: the old row plus the tile's numerator, in every lane. -/
theorem pay1_apply (v31 : FVec Ideal S1 .f32) (v36 : FVec Ideal S1x128 .f32) (j : S1x128.Idx) :
    k0_pay1 (F := Ideal) v31 v36 j = v36 j + v31 (ix1 (0 : Fin 1)) := by
  obtain ⟨p, q, rfl⟩ : ∃ (p : Fin 1) (q : Fin 128), j = ix2 p q := ⟨j 0, j 1, eq_ix2 j⟩
  unfold k0_pay1
  rw [addf_apply, broadcastTo_a1_ab_apply, shapeCast_self, shapeCast_a_1a_apply]

/-- The second accumulator's new row: the old row plus the tile's denominator, in every lane. -/
theorem pay2_apply (v34 : FVec Ideal S1 .f32) (v42 : Vec Ideal S1x128 .f32) (j : S1x128.Idx) :
    k0_pay2 (F := Ideal) v34 v42 j = v42 j + v34 (ix1 (0 : Fin 1)) := by
  obtain ⟨p, q, rfl⟩ : ∃ (p : Fin 1) (q : Fin 128), j = ix2 p q := ⟨j 0, j 1, eq_ix2 j⟩
  unfold k0_pay2
  rw [addf_apply, broadcastTo_a1_ab_apply, shapeCast_self, shapeCast_self, shapeCast_a_1a_apply]

/-- The first accumulator starts from zero in every lane. -/
theorem pay3_apply (j : S1x128.Idx) : k0_pay3 (F := Ideal) j = 0 := by
  unfold k0_pay3
  rw [broadcast_apply]
  exact Ideal.ofBits_zero_f32

/-- The second accumulator starts from zero in every lane. -/
theorem pay4_apply (j : S1x128.Idx) : k0_pay4 (F := Ideal) j = 0 := by
  unfold k0_pay4
  rw [broadcast_apply]
  exact Ideal.ofBits_zero_f32

/-- The accumulator's row as it is read back: unchanged. -/
theorem pay8_eq (v35 : Vec Ideal S1x128 .f32) : k0_pay8 (F := Ideal) v35 = v35 := by
  unfold k0_pay8
  exact shapeCast_self _ _

end Cert.Surv.Tile

end
-- ==== Proof.KI.Accum.lean ====
/-
  The two running totals over the grid.

  The body visits the 64 tiles of the pair matrix in row-major order. Its two accumulator rows, 128 equal lanes each,
  are set from zero at the first point and at every later point hold what the point before left plus the point's
  tile: the first row gains the sum of the tile's contributions, the second the sum of its weights. Read the arrays
  behind the input windows as the families `z` (scores), `tm` (times) and `e` (event indicators) over the 8192
  subjects. Then the block reads identify the body's two sums at point `t` with `tileNum` and `tileDen` of tile
  (t / 8, t % 8) (`tileNum_at`, `tileDen_at`), and induction on the position gives: after position `n` every lane of
  the first row is `accNum (n + 1)` and every lane of the second is `accDen (n + 1)` (`outsAt_acc`).
-/
import proofs.«173071_j3633542332969_1_alg».proof.Proof.KI.Blocks
import proofs.«173071_j3633542332969_1_alg».proof.Proof.KI.Pieces
import proofs.«173071_j3633542332969_1_alg».proof.Proof.TileValue
import proofs.«173071_j3633542332969_1_alg».proof.Proof.PairSpec
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

-- the TensorCore's buffer contents when the region is entered, at the ideal values
variable (V : (c : Dev nD) → (b : Ref sig .tc) → Buf (Elt Ideal) ((c : Thread nD τ).loc b))

/-! ## One point's tile -/

section Tile
variable (c : Dev nD) (z tm e : Fin 8192 → EReal)
  (hz : ∀ a, V c main_arg0 (ix2 a (0 : Fin 1)) = z a) (ht : ∀ a, V c main_v4 (ix2 a (0 : Fin 1)) = tm a)
  (he : ∀ a, V c main_v3 (ix2 a (0 : Fin 1)) = e a)
include hz ht he

/-- The body's first sum at point `t`, over the blocks the point reads, is the sum of the contributions of tile
    (t / 8, t % 8). -/
theorem tileNum_at (t : Fin cfg0.N) :
    k0_pay6 (F := Ideal) (iblk V c 0 t) (iblk V c 1 t) (iblk V c 2 t) (iblk V c 3 t) (iblk V c 4 t) (ix1 (0 : Fin 1))
      = Cert.Surv.tileNum z tm e (Cert.Surv.tileI t.val) (Cert.Surv.tileJ t.val) := by
  refine (Cert.Surv.Tile.pay6_apply (iblk V c 0 t) (iblk V c 1 t) (iblk V c 2 t) (iblk V c 3 t) (iblk V c 4 t)).trans ?_
  unfold Cert.Surv.tileNum
  refine Finset.sum_congr rfl fun r _ => Finset.sum_congr rfl fun s _ => ?_
  rw [iblk0_apply V c t r, iblk1_apply V c t s, iblk2_apply V c t r, iblk3_apply V c t s, iblk4_apply V c t r,
    hz, hz, ht, ht, he]

/-- The body's second sum at point `t` is the sum of the weights of tile (t / 8, t % 8). -/
theorem tileDen_at (t : Fin cfg0.N) :
    k0_pay7 (F := Ideal) (iblk V c 2 t) (iblk V c 3 t) (iblk V c 4 t) (ix1 (0 : Fin 1))
      = Cert.Surv.tileDen tm e (Cert.Surv.tileI t.val) (Cert.Surv.tileJ t.val) := by
  refine (Cert.Surv.Tile.pay7_apply (iblk V c 2 t) (iblk V c 3 t) (iblk V c 4 t)).trans ?_
  unfold Cert.Surv.tileDen
  refine Finset.sum_congr rfl fun r _ => Finset.sum_congr rfl fun s _ => ?_
  rw [iblk2_apply V c t r, iblk3_apply V c t s, iblk4_apply V c t r, ht, ht, he]

end Tile

/-! ## The accumulation over the grid -/

section Acc
variable (c : Dev nD) (z tm e : Fin 8192 → EReal)
  (hz : ∀ a, V c main_arg0 (ix2 a (0 : Fin 1)) = z a) (ht : ∀ a, V c main_v4 (ix2 a (0 : Fin 1)) = tm a)
  (he : ∀ a, V c main_v3 (ix2 a (0 : Fin 1)) = e a)
include hz ht he

/-- After the body at position `n` every lane of the first accumulator row holds the contributions of the first
    `n + 1` tiles, and every lane of the second their weights: the first point starts both rows from zero and each
    later point adds its tile to what the point before left. -/
theorem outsAt_acc : ∀ (n : ℕ) (hn : n < cfg0.N) (j : S1x128.Idx),
    (outsAt (F := Ideal) V c n hn).1 j = Cert.Surv.accNum z tm e (n + 1)
      ∧ (outsAt (F := Ideal) V c n hn).2 j = Cert.Surv.accDen tm e (n + 1) := by
  intro n
  induction n with
  | zero =>
    intro hn j
    have h0 : (⟨0, hn⟩ : Fin cfg0.N).val % 64 = 0 := rfl
    constructor
    · refine (congrFun (outsAt_A5 V c ⟨0, hn⟩ h0) j).trans ?_
      refine (congrFun (outA5_eq c ⟨0, hn⟩ _ _ _ _ _ _) j).trans ?_
      refine (Cert.Surv.Tile.pay1_apply _ _ j).trans ?_
      rw [Cert.Surv.Tile.pay8_eq, Cert.Surv.Tile.pay3_apply, tileNum_at V c z tm e hz ht he ⟨0, hn⟩]
      rfl
    · refine (congrFun (outsAt_A6 V c ⟨0, hn⟩ h0) j).trans ?_
      refine (congrFun (outA6_eq c ⟨0, hn⟩ _ _ _ _ _ _) j).trans ?_
      refine (Cert.Surv.Tile.pay2_apply _ _ j).trans ?_
      rw [Cert.Surv.Tile.pay4_apply, tileDen_at V c z tm e hz ht he ⟨0, hn⟩]
      rfl
  | succ m ih =>
    intro hn j
    have hN : m + 1 < 64 := lt_of_lt_of_eq hn (show cfg0.N = 64 from N_0)
    have h0 : ¬(⟨m + 1, hn⟩ : Fin cfg0.N).val % 64 = 0 := by
      show ¬(m + 1) % 64 = 0
      omega
    constructor
    · refine (congrFun (outsAt_B5 V c ⟨m + 1, hn⟩ h0) j).trans ?_
      refine (congrFun (outB5_eq c ⟨m + 1, hn⟩ _ _ _ _ _ _ _ _) j).trans ?_
      refine (Cert.Surv.Tile.pay1_apply _ _ j).trans ?_
      rw [Cert.Surv.Tile.pay8_eq, tileNum_at V c z tm e hz ht he ⟨m + 1, hn⟩]
      exact congrArg (· + _) (ih (Nat.lt_of_succ_lt hn) j).1
    · refine (congrFun (outsAt_B6 V c ⟨m + 1, hn⟩ h0) j).trans ?_
      refine (congrFun (outB6_eq c ⟨m + 1, hn⟩ _ _ _ _ _ _ _ _) j).trans ?_
      refine (Cert.Surv.Tile.pay2_apply _ _ j).trans ?_
      rw [tileDen_at V c z tm e hz ht he ⟨m + 1, hn⟩]
      exact congrArg (· + _) (ih (Nat.lt_of_succ_lt hn) j).2

end Acc

end Cert.KernelIdeal.Hand

end
-- ==== Proof.HostValue.lean ====
/-
  What the buffers hold after each of the two stretches of host operations, from any contents `W` of the buffers.

  Before the kernel region the program computes, from the time array t and the censoring words c (its second and
  third arguments): the array 1 − float(c), and the two column views [8192, 1] of that array and of t. A reshape
  of an array of n elements to n rows of one column keeps row-major order, so row a of the view is element a of
  the array. Hence the view of t holds t a at (a, 0), and the other view holds 1 − (c a read as a signed integer)
  at (a, 0): the event indicator of subject a.

  After the region the program takes the element (0, 0) of each of the region's two results [1, 128], as a scalar,
  negates the first and divides it by the second.

  None of these operations writes an argument of the program, so the three arguments hold after either stretch
  what they held before it; this is a statement about which buffers are written and holds for any float values.
-/
import proofs.«173071_j3633542332969_1_alg».proof.Proof.Gen.KernelIdeal.Launch
import proofs.«173071_j3633542332969_1_alg».proof.Proof.PairSpec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Surv.Host

open Cert.KernelIdeal Cert.KernelIdeal.Gen Idealize.ShloMosaic Idealize.ShloMosaic.ValueIdx

variable [Cert.KernelIdeal.Facts]

section Generic
variable {F : FTy → Type} [FloatOps F]

/-- The operations before the region write none of the program's three arguments. -/
theorem pre_keeps (W : Valuation τ sig (Elt F)) (b : Ref sig .tc) (hb : b = main_arg0 ∨ b = main_arg1 ∨ b = main_arg2) :
    StableHlo.after (hostOps0 (F := F)) W (Proc.devRef .tc b) = W (Proc.devRef .tc b) := by
  refine StableHlo.after_of_forall_not_mem (b := Proc.devRef .tc b) _ _ (List.forall_iff_forall_mem.mp ?_)
  simp only [hostOps0, List.Forall, StableHlo.nullary_writes, StableHlo.unary_writes, StableHlo.binary_writes,
    StableHlo.reshape_writes, Finset.mem_singleton]
  rcases hb with rfl | rfl | rfl
  all_goals
    repeat' apply And.intro
    all_goals exact StableHlo.devRef_ne_of_ne (by decide)

/-- The operations after the region write none of the program's three arguments. -/
theorem post_keeps (W : Valuation τ sig (Elt F)) (b : Ref sig .tc) (hb : b = main_arg0 ∨ b = main_arg1 ∨ b = main_arg2) :
    StableHlo.after (hostOps1 (F := F)) W (Proc.devRef .tc b) = W (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes,
    StableHlo.reshape_writes, Finset.mem_singleton]
  rcases hb with rfl | rfl | rfl
  all_goals
    repeat' apply And.intro
    all_goals exact StableHlo.devRef_ne_of_ne (by decide)

end Generic

/-- The column view of the times holds, in row `a`, the time of subject `a`: position (a, 0) of 8192 rows of one
    column and position a of 8192 elements are the same row-major position, a · 1 + 0 = a. -/
theorem pre_v4 (W : Valuation τ sig (Elt Ideal)) (a : Fin 8192) :
    StableHlo.after (hostOps0 (F := Ideal)) W (Proc.devRef .tc main_v4) (ix2 a (0 : Fin 1))
      = W (Proc.devRef .tc main_arg1) (ix1 a) := by
  have e : (StableHlo.after (hostOps0 (F := Ideal)) W (Proc.devRef .tc main_v4) : S8192x1.Idx → EReal)
      = shapeCast S8192x1 (W (Proc.devRef .tc main_arg1) : S8192.Idx → EReal) Facts₀.shapeCasts_S8192_S8192x1 := by
    after_results; rfl
  refine (congrFun e _).trans ?_
  refine shapeCast_apply _ _ (ix2 a (0 : Fin 1)) (ix1 a) ?_
  rw [Shape.rowMajor_val_two, Shape.rowMajor_val_one]
  show a.val = a.val * 1 + 0
  omega

/-- The column view of the event indicators holds, in row `a`, one minus the censoring word of subject `a` read as
    a signed integer: the broadcast scalar is the binary32 pattern of 1, the conversion of a word is its signed
    value, the subtraction is elementwise, and the reshape keeps the row-major position as above. -/
theorem pre_v3 (W : Valuation τ sig (Elt Ideal)) (a : Fin 8192) :
    StableHlo.after (hostOps0 (F := Ideal)) W (Proc.devRef .tc main_v3) (ix2 a (0 : Fin 1))
      = Cert.Surv.event (W (Proc.devRef .tc main_arg2) (ix1 a)) := by
  have e : (StableHlo.after (hostOps0 (F := Ideal)) W (Proc.devRef .tc main_v3) : S8192x1.Idx → EReal)
      = shapeCast S8192x1
          (subf (broadcastInDim S8192 ![] Facts₀.bcast_S_S8192 (constant (F := Ideal) S_ .f32 0x3F800000#32))
            (sitofp .f32 (W (Proc.devRef .tc main_arg2) : S8192.Idx → BitVec 32)) : S8192.Idx → EReal)
          Facts₀.shapeCasts_S8192_S8192x1 := by
    after_results; rfl
  refine (congrFun e _).trans ?_
  refine (shapeCast_apply _ _ (ix2 a (0 : Fin 1)) (ix1 a) ?_).trans ?_
  · rw [Shape.rowMajor_val_two, Shape.rowMajor_val_one]
    show a.val = a.val * 1 + 0
    omega
  rw [subf_apply, broadcastInDim_scalar_apply, constant_apply, sitofp_apply, Ideal.ofBits_one_f32]
  rfl

/-- The program's result is minus the element (0, 0) of the region's first result, divided by the element (0, 0) of
    its second: the slice [0:1, 0:1] of a [1, 128] array holds its element (0, 0), the one element of a [1, 1]
    array is the scalar it reshapes to, and the host's negation and quotient are the extended reals' negation and
    the ideal division. -/
theorem post_v11 (W : Valuation τ sig (Elt Ideal)) :
    StableHlo.after (hostOps1 (F := Ideal)) W (Proc.devRef .tc main_v11) ix0
      = Ideal.div (Neg.neg (α := EReal) (W (Proc.devRef .tc main_v5_0) (ix2 (0 : Fin 1) (0 : Fin 128))))
          (W (Proc.devRef .tc main_v5_1) (ix2 (0 : Fin 1) (0 : Fin 128))) := by
  have e : (StableHlo.after (hostOps1 (F := Ideal)) W (Proc.devRef .tc main_v11) : S_.Idx → EReal)
      = Host.divf (F := Ideal) (s := S_) (φ := .f32)
          (Host.negf (F := Ideal) (s := S_) (φ := .f32) (shapeCast S_ (extractStridedSlice (s := S1x128) (α := EReal) S1x1 ![0, 0]
            (W (Proc.devRef .tc main_v5_0)) Facts₀.slices_S1x128_S1x1_0_0) Facts₀.shapeCasts_S1x1_S_))
          (shapeCast S_ (extractStridedSlice (s := S1x128) (α := EReal) S1x1 ![0, 0]
            (W (Proc.devRef .tc main_v5_1)) Facts₀.slices_S1x128_S1x1_0_0) Facts₀.shapeCasts_S1x1_S_) := by
    after_results; rfl
  refine (congrFun e _).trans ?_
  -- the scalar reshaped from the [0:1, 0:1] slice of a [1, 128] array is the array's element (0, 0)
  have h0 : ∀ x : S1x128.Idx → EReal,
      shapeCast S_ (extractStridedSlice S1x1 ![0, 0] x Facts₀.slices_S1x128_S1x1_0_0) Facts₀.shapeCasts_S1x1_S_ ix0
        = x (ix2 (0 : Fin 1) (0 : Fin 128)) := by
    intro x
    refine (shapeCast_apply _ _ ix0 (ix2 (0 : Fin 1) (0 : Fin 1)) ?_).trans ?_
    · rw [Shape.rowMajor_val_two]
      show 0 * 1 + 0 = (Shape.rowMajorPi _ _).val
      rw [Shape.rowMajorPi_zero]
    · refine extractStridedSlice_apply _ _ _ _ (ix2 (0 : Fin 1) (0 : Fin 128)) ?_
      intro a
      match a with
      | ⟨0, _⟩ => rfl
      | ⟨1, _⟩ => rfl
  show Ideal.div (-(shapeCast S_ _ _ ix0)) (shapeCast S_ _ _ ix0) = _
  rw [h0, h0]

end Cert.Surv.Host

end
-- ==== Proof.TileSums.lean ====
/-
  The sum over all ordered pairs of subjects, read tile by tile.

  The 8192 subjects split into 8 blocks of 1024 consecutive ones, so a sum over the subjects is a sum over the
  blocks of the sums inside each block. Applied to both members of an ordered pair, and after exchanging the two
  middle summations, the sum over all pairs becomes the sum over the 8 × 8 tiles of the sums inside each tile.
  The row-major walk n ↦ (n / 8, n % 8) of the first 64 naturals visits each tile exactly once, so the
  accumulation of the first 64 tiles is the sum over all tiles, that is, the sum over all ordered pairs.
  Only commutativity and associativity of addition are used, so everything holds in the extended reals.
-/
import proofs.«173071_j3633542332969_1_alg».proof.Proof.PairSpec

noncomputable section

namespace Cert.Surv

open Finset

/-- A subject is a block together with a position inside the block. -/
private def blockEquiv : Fin 8 × Fin 1024 ≃ Fin 8192 where
  toFun p := row p.1 p.2
  invFun a := (⟨a.val / 1024, by omega⟩, ⟨a.val % 1024, by omega⟩)
  left_inv := by
    rintro ⟨i, r⟩
    refine Prod.ext (Fin.ext ?_) (Fin.ext ?_)
    · show (i.val * 1024 + r.val) / 1024 = i.val
      omega
    · show (i.val * 1024 + r.val) % 1024 = r.val
      omega
  right_inv := by
    intro a
    refine Fin.ext ?_
    show a.val / 1024 * 1024 + a.val % 1024 = a.val
    omega

/-- A sum over the subjects is the sum over the blocks of the sums inside each block. -/
private theorem sum_blocks (g : Fin 8192 → EReal) :
    ∑ a : Fin 8192, g a = ∑ i : Fin 8, ∑ r : Fin 1024, g (row i r) := by
  rw [← Equiv.sum_comp blockEquiv g, Fintype.sum_prod_type]
  rfl

/-- The point of the row-major walk that works on a given tile. -/
private def gridEquiv : Fin 8 × Fin 8 ≃ Fin 64 where
  toFun p := ⟨p.1.val * 8 + p.2.val, by omega⟩
  invFun k := (tileI k.val, tileJ k.val)
  left_inv := by
    rintro ⟨i, j⟩
    refine Prod.ext (Fin.ext ?_) (Fin.ext ?_)
    · show (i.val * 8 + j.val) / 8 % 8 = i.val
      omega
    · show (i.val * 8 + j.val) % 8 = j.val
      omega
  right_inv := by
    intro k
    refine Fin.ext ?_
    show k.val / 8 % 8 * 8 + k.val % 8 = k.val
    omega

/-- The row-major walk of the first 64 naturals visits each of the 8 × 8 tiles exactly once. -/
private theorem sum_grid (h : Fin 8 → Fin 8 → EReal) :
    ∑ k ∈ range 64, h (tileI k) (tileJ k) = ∑ i : Fin 8, ∑ j : Fin 8, h i j := by
  refine (Finset.sum_range (fun k => h (tileI k) (tileJ k))).trans ?_
  refine (Equiv.sum_comp gridEquiv.symm (fun p : Fin 8 × Fin 8 => h p.1 p.2)).trans ?_
  exact Fintype.sum_prod_type _

/-- The sum over all ordered pairs is the sum over the tiles of the sums inside each tile. -/
private theorem sum_pairs (f : Fin 8192 → Fin 8192 → EReal) :
    ∑ a : Fin 8192, ∑ b : Fin 8192, f a b
      = ∑ i : Fin 8, ∑ j : Fin 8, ∑ r : Fin 1024, ∑ s : Fin 1024, f (row i r) (row j s) := by
  rw [sum_blocks]
  refine Finset.sum_congr rfl fun i _ => ?_
  refine Eq.trans ?_ Finset.sum_comm
  refine Finset.sum_congr rfl fun r _ => ?_
  exact sum_blocks (f (row i r))

/-- The accumulation of the first `n` tiles is the sum of their contributions. -/
private theorem accNum_eq_sum (z t e : Fin 8192 → EReal) (n : ℕ) :
    accNum z t e n = ∑ k ∈ range n, tileNum z t e (tileI k) (tileJ k) := by
  induction n with
  | zero => simp [accNum]
  | succ n ih => rw [Finset.sum_range_succ, ← ih, accNum]

private theorem accDen_eq_sum (t e : Fin 8192 → EReal) (n : ℕ) :
    accDen t e n = ∑ k ∈ range n, tileDen t e (tileI k) (tileJ k) := by
  induction n with
  | zero => simp [accDen]
  | succ n ih => rw [Finset.sum_range_succ, ← ih, accDen]

/-- The contributions of the 64 tiles add up to the sum over all ordered pairs. -/
theorem accNum_64 (z t e : Fin 8192 → EReal) : accNum z t e 64 = num z t e := by
  rw [accNum_eq_sum, sum_grid (tileNum z t e), num,
    sum_pairs (fun a b => term (z a) (z b) (t a) (t b) (e a))]
  rfl

/-- The weights of the 64 tiles add up to the sum over all ordered pairs. -/
theorem accDen_64 (t e : Fin 8192 → EReal) : accDen t e 64 = den t e := by
  rw [accDen_eq_sum, sum_grid (tileDen t e), den,
    sum_pairs (fun a b => weight (t a) (t b) (e a))]
  rfl

end Cert.Surv

end
-- ==== Proof.KI.Value.lean ====
/-
  The result of the idealized kernel's run is the pairwise ranking loss of its three argument arrays.

  After the last host stretch the result is minus the first lane of the numerator's array divided by the first lane
  of the denominator's. Each array holds what the last grid point left in its accumulator: the accumulation of the 64
  tiles' sums from zero, which is the sum over all ordered pairs. The three families the sums run over are read off
  the region-entry contents: the scores are the first argument, the times the second argument reshaped to a column,
  the event indicators one minus the censoring words.
-/
import proofs.«173071_j3633542332969_1_alg».proof.Proof.KI.Launch
import proofs.«173071_j3633542332969_1_alg».proof.Proof.KI.Final
import proofs.«173071_j3633542332969_1_alg».proof.Proof.KI.Accum
import proofs.«173071_j3633542332969_1_alg».proof.Proof.HostValue
import proofs.«173071_j3633542332969_1_alg».proof.Proof.TileSums

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The scores, the times and the event indicators of the 8192 subjects, read off the launch memory. -/
def scores (c : Dev nD) (a : Fin 8192) : EReal := m ((c.tc : Thread nD τ).loc main_arg0) (ix2 a (0 : Fin 1))
def times (c : Dev nD) (a : Fin 8192) : EReal := m ((c.tc : Thread nD τ).loc main_arg1) (ix1 a)
def events (c : Dev nD) (a : Fin 8192) : EReal := Cert.Surv.event (m ((c.tc : Thread nD τ).loc main_arg2) (ix1 a))

theorem entry_scores (c : Dev nD) (a : Fin 8192) : V1 m ρ c main_arg0 (ix2 a (0 : Fin 1)) = scores m c a :=
  congrFun (pre_keeps0 (W0 m ρ c)) (ix2 a (0 : Fin 1))
theorem entry_times (c : Dev nD) (a : Fin 8192) : V1 m ρ c main_v4 (ix2 a (0 : Fin 1)) = times m c a :=
  Cert.Surv.Host.pre_v4 (W0 m ρ c) a
theorem entry_events (c : Dev nD) (a : Fin 8192) : V1 m ρ c main_v3 (ix2 a (0 : Fin 1)) = events m c a :=
  Cert.Surv.Host.pre_v3 (W0 m ρ c) a

/-- The run's result, read: the loss of the three families. -/
theorem result_eq (c : Dev nD) :
    W3 m ρ c (Proc.devRef .tc main_v11) = fun _ => Cert.Surv.loss (scores m c) (times m c) (events m c) := by
  funext i
  obtain rfl := eq_ix0 i
  refine (Cert.Surv.Host.post_v11 (W2 m ρ c)).trans ?_
  rw [W2_v5_0, W2_v5_1]
  unfold res5 res6
  rw [arrAt5_last, arrAt6_last]
  obtain ⟨h5, h6⟩ := outsAt_acc (V1 m ρ) c (scores m c) (times m c) (events m c)
    (entry_scores m ρ c) (entry_times m ρ c) (entry_events m ρ c) tLast.val tLast.isLt (ix2 (0 : Fin 1) (0 : Fin 128))
  unfold last5 last6
  rw [h5, h6]
  show Ideal.div (-(Cert.Surv.accNum (scores m c) (times m c) (events m c) 64)) (Cert.Surv.accDen (times m c) (events m c) 64) = _
  rw [Cert.Surv.accNum_64, Cert.Surv.accDen_64]
  rfl

end Cert.KernelIdeal.Hand

end
-- ==== Proof.RefLoss.lean ====
/-
  The reference program computes the pairwise ranking loss of the shared specification.

  Its pair matrix is built entry by entry. At the ordered pair (a, b) the mask is the bit "time a < time b", read as
  the number 0 or 1, times the event indicator of subject a, which the program obtains as the signed integer 1 − c
  for a's censoring word c, read as a float. The value at the pair is 1 / (1 + exp (−(z a − z b))), which is the
  logistic function of the score difference. For a censoring word that is 0 or 1 the signed integer 1 − c is 1 or 0,
  and that is the specification's event indicator of c; a mask bit times an extended real e is e when the bit is set
  and 0 when it is not, and that is the specification's weight. So every entry of the masked matrix is a weight,
  every entry of the product matrix is a pair's contribution, the two total sums started from zero are the sum of the
  contributions and the sum of the weights (a sum over the index set of the square matrix is the double sum over its
  two coordinates), and the result, minus the first sum divided by the second, is the loss.

  That every censoring word is 0 or 1 is what the input precondition says of them: its last conjunct is the
  conjunction over all subjects of the two signed comparisons 0 ≤ c and c ≤ 1, and a 32-bit word whose signed value
  lies between 0 and 1 is the word 0 or the word 1.
-/
import proofs.«173071_j3633542332969_1_alg».proof.Proof.Gen.ReferenceIdeal.Read
import proofs.«173071_j3633542332969_1_alg».proof.Proof.Gen.Pre_finite_inputs
import proofs.«173071_j3633542332969_1_alg».proof.Proof.PairSpec
import Idealize.ShloMosaic.Lib.ValueIdx
import Idealize.ShloMosaic.Lib.ReduceAll
import Idealize.ShloMosaic.Lib.IdealHost
import Idealize.ShloMosaic.PureOps.Ideal.Laws
import Idealize.ShloMosaic.Lib.Pipeline.Value

noncomputable section

namespace Cert.Surv.Ref

open Idealize.ShloMosaic Idealize.ShloMosaic.ValueIdx

/-! ## The censoring words are 0 or 1 -/

/-- A 32-bit word whose signed value lies between the signed values of the words 0 and 1 is one of those two words:
    a word is determined by its signed value, and the only integers from 0 to 1 are 0 and 1. -/
theorem word_binary (c : BitVec 32) (h0 : (0#32 : BitVec 32).toInt ≤ c.toInt) (h1 : c.toInt ≤ (1#32 : BitVec 32).toInt) :
    c = 0#32 ∨ c = 1#32 := by
  have e0 : (0#32 : BitVec 32).toInt = 0 := by decide
  have e1 : (1#32 : BitVec 32).toInt = 1 := by decide
  rw [e0] at h0
  rw [e1] at h1
  rcases (by omega : c.toInt = 0 ∨ c.toInt = 1) with e | e
  · exact Or.inl (BitVec.eq_of_toInt_eq (e.trans e0.symm))
  · exact Or.inr (BitVec.eq_of_toInt_eq (e.trans e1.symm))

open Idealize.ShloMosaic Idealize.ShloMosaic.ValueIdx in
/-- the censoring words are 0 or 1 when the precondition holds: the precondition is a conjunction whose last conjunct
    is the conjunction over all subjects of "0 ≤ c and c ≤ 1", both compared as signed integers. -/
theorem censor_binary [Cert.Pre_finite_inputs.Facts] (x0 : FVec Ideal Cert.Pre_finite_inputs.S8192x1 .f32) (x1 : FVec Ideal Cert.Pre_finite_inputs.S8192 .f32) (x2 : IVec Cert.Pre_finite_inputs.S8192 32)
    (h : Cert.Pre_finite_inputs.fn (F := Ideal) x0 x1 x2 = (fun _ => 1#1)) : ∀ a : Fin 8192, x2 (ix1 a) = 0#32 ∨ x2 (ix1 a) = 1#32 := by
  intro a
  -- the scalar shape has one index, so a conjunction over all subjects into it speaks of every subject
  haveI : Subsingleton Cert.Pre_finite_inputs.S_.Idx := ⟨fun _ _ => funext fun d => d.elim0⟩
  have h0 := congrFun h ix0
  dsimp only [Cert.Pre_finite_inputs.fn] at h0
  obtain ⟨_, h14⟩ := IntOp.andi_eq_one.1 h0
  have hall := Host.reduce_andi_all _ _ _ _ _ h14 (ix1 a)
  obtain ⟨hge, hle⟩ := IntOp.andi_eq_one.1 hall
  exact word_binary _ (IntOp.cmpi_sge.1 hge) (IntOp.cmpi_sle.1 hle)

/-! ## The reference, entry by entry -/

open Cert.ReferenceIdeal Cert.ReferenceIdeal.Read

/-- Where the entries of the pair matrix read the argument arrays: the row time of entry (a, b) is subject a's … -/
theorem idx_t_row (a b : Fin 8192) : idx_main_v4 (idx_main_v6 (ix2 a b)) = ix1 a :=
  funext fun d => match d with | ⟨0, _⟩ => rfl
/-- … the column time is subject b's … -/
theorem idx_t_col (a b : Fin 8192) : idx_main_v5 (idx_main_v7 (ix2 a b)) = ix1 b :=
  funext fun d => match d with | ⟨0, _⟩ => rfl
/-- … the event indicator is subject a's … -/
theorem idx_e_row (a b : Fin 8192) : idx_main_v10 (idx_main_v11 (ix2 a b)) = ix1 a :=
  funext fun d => match d with | ⟨0, _⟩ => rfl
/-- … the row score is subject a's entry of the score column … -/
theorem idx_z_row (a b : Fin 8192) : idx_main_v3 (idx_main_v13 (idx_main_v15 (ix2 a b))) = ix2 a (0 : Fin 1) :=
  funext fun d => match d with | ⟨0, _⟩ => Fin.ext (Nat.div_one _) | ⟨1, _⟩ => rfl
/-- … and the column score is subject b's. -/
theorem idx_z_col (a b : Fin 8192) : idx_main_v3 (idx_main_v14 (idx_main_v16 (ix2 a b))) = ix2 b (0 : Fin 1) :=
  funext fun d => match d with | ⟨0, _⟩ => Fin.ext (Nat.div_one _) | ⟨1, _⟩ => rfl

/-- For a censoring word c that is 0 or 1, the word 1 − c read as a signed integer is the event indicator 1 − c:
    it is 1 for c = 0 and 0 for c = 1. -/
theorem word_event (c : BitVec 32) (hc : c = 0#32 ∨ c = 1#32) :
    (((IntOp.subi 1#32 c).toInt : ℝ) : EReal) = event c := by
  unfold event
  rcases hc with rfl | rfl
  · have e1 : (IntOp.subi 1#32 0#32).toInt = 1 := by decide
    have e2 : (0#32 : BitVec 32).toInt = 0 := by decide
    rw [e1, e2]
    simp
  · have e1 : (IntOp.subi 1#32 1#32).toInt = 0 := by decide
    have e2 : (1#32 : BitVec 32).toInt = 1 := by decide
    rw [e1, e2, ← EReal.coe_one, ← EReal.coe_sub]
    norm_num

/-- The comparison bit "ta < tb" read as the number 0 or 1, times the event indicator, is the pair's weight: the
    indicator when the bit is set (1 · e = e), zero when it is not (0 · e = 0, for every extended real e). -/
theorem word_weight (ta tb : EReal) (c : BitVec 32) (hc : c = 0#32 ∨ c = 1#32) :
    FloatOps.mulf (F := Ideal) (φ := .f32) (FloatOps.uitofp .f32 (FloatOps.cmpf (F := Ideal) (φ := .f32) .olt ta tb))
        (FloatOps.sitofp .f32 (IntOp.subi 1#32 c)) = weight ta tb (event c) := by
  show (((Ideal.cmp .olt ta tb).toNat : ℝ) : EReal) * (((IntOp.subi 1#32 c).toInt : ℝ) : EReal)
    = Scalar.select (Ideal.cmp .olt ta tb) (event c) 0
  rw [word_event c hc]
  rcases BitVec.eq_zero_or_eq_one (Ideal.cmp .olt ta tb) with hb | hb
  · rw [hb, select_zero]; simp
  · rw [hb, select_one]; simp

/-- Entry (a, b) of the masked matrix is the weight of the ordered pair (a, b). -/
theorem mask_eq (x1 : (⟨S8192, .f32⟩ : BufTy).Contents (Elt Ideal)) (x2 : (⟨S8192, .i32⟩ : BufTy).Contents (Elt Ideal))
    (hc : ∀ a : Fin 8192, x2 (ix1 a) = 0#32 ∨ x2 (ix1 a) = 1#32) (a b : Fin 8192) :
    val_main_v12 (F := Ideal) x1 x2 (ix2 a b) = weight (x1 (ix1 a)) (x1 (ix1 b)) (event (x2 (ix1 a))) := by
  rw [val_main_v12_apply, val_main_v9_apply, val_main_v8_apply, val_main_v6_apply, val_main_v4_apply, val_main_v7_apply,
    val_main_v5_apply, val_main_v11_apply, val_main_v10_apply, val_main_v2_apply, val_main_v1_apply, val_main_v0_apply,
    val_main_c_apply, idx_t_row, idx_t_col, idx_e_row]
  exact word_weight _ _ _ (hc a)

/-- Entry (a, b) of the value matrix, 1 / (1 + exp (−(z a − z b))), is the logistic function of the score difference. -/
theorem vals_eq (x0 : (⟨S8192x1, .f32⟩ : BufTy).Contents (Elt Ideal)) (a b : Fin 8192) :
    val_main_v23 (F := Ideal) x0 (ix2 a b) = Ideal.logistic (x0 (ix2 a (0 : Fin 1)) - x0 (ix2 b (0 : Fin 1))) := by
  rw [val_main_v23_apply, val_main_v22_apply, val_main_cst_0_apply, val_main_v21_apply, val_main_v20_apply, val_main_cst_apply,
    val_main_v19_apply, val_main_v18_apply, val_main_v17_apply, val_main_v15_apply, val_main_v13_apply, val_main_v3_apply,
    val_main_v16_apply, val_main_v14_apply, val_main_v3_apply, idx_z_row, idx_z_col]
  simp only [Ideal.hostDivf_def, Ideal.ofBits_def, Ideal.ofBits_one_f32, Ideal.addf_def, Ideal.hostUnary_exp_def,
    Ideal.hostNegf_def, Ideal.negf_def, Ideal.subf_def]
  rfl

/-! ## The two sums and the quotient -/

/-- The total sum of the product matrix from zero is the sum of the contributions over all ordered pairs. -/
theorem num_eq (x0 : (⟨S8192x1, .f32⟩ : BufTy).Contents (Elt Ideal)) (x1 : (⟨S8192, .f32⟩ : BufTy).Contents (Elt Ideal))
    (x2 : (⟨S8192, .i32⟩ : BufTy).Contents (Elt Ideal)) (hc : ∀ a : Fin 8192, x2 (ix1 a) = 0#32 ∨ x2 (ix1 a) = 1#32) (i : S_.Idx) :
    val_main_v25 (F := Ideal) x0 x1 x2 i
      = num (fun a => x0 (ix2 a (0 : Fin 1))) (fun a => x1 (ix1 a)) (fun a => event (x2 (ix1 a))) := by
  rw [val_main_v25_apply, val_main_cst_1_apply, Ideal.ofBits_def, Ideal.ofBits_zero_f32, zero_add, sum_idx2]
  unfold num
  refine Finset.sum_congr rfl fun a _ => Finset.sum_congr rfl fun b _ => ?_
  rw [val_main_v24_apply, mask_eq x1 x2 hc, vals_eq]
  rfl

/-- The total sum of the masked matrix from zero is the sum of the weights over all ordered pairs. -/
theorem den_eq (x1 : (⟨S8192, .f32⟩ : BufTy).Contents (Elt Ideal))
    (x2 : (⟨S8192, .i32⟩ : BufTy).Contents (Elt Ideal)) (hc : ∀ a : Fin 8192, x2 (ix1 a) = 0#32 ∨ x2 (ix1 a) = 1#32) (i : S_.Idx) :
    val_main_v26 (F := Ideal) x1 x2 i = den (fun a => x1 (ix1 a)) (fun a => event (x2 (ix1 a))) := by
  rw [val_main_v26_apply, val_main_cst_2_apply, Ideal.ofBits_def, Ideal.ofBits_zero_f32, zero_add, sum_idx2]
  unfold den
  exact Finset.sum_congr rfl fun a _ => Finset.sum_congr rfl fun b _ => mask_eq x1 x2 hc a b

open Idealize.ShloMosaic Idealize.ShloMosaic.ValueIdx in
/-- the reference's result is the loss: minus the sum of the contributions, divided by the sum of the weights. -/
theorem ref_eq_loss [Cert.ReferenceIdeal.Facts] (x0 : (⟨Cert.ReferenceIdeal.S8192x1, .f32⟩ : BufTy).Contents (Elt Ideal)) (x1 : (⟨Cert.ReferenceIdeal.S8192, .f32⟩ : BufTy).Contents (Elt Ideal)) (x2 : (⟨Cert.ReferenceIdeal.S8192, .i32⟩ : BufTy).Contents (Elt Ideal))
    (hc : ∀ a : Fin 8192, x2 (ix1 a) = 0#32 ∨ x2 (ix1 a) = 1#32) :
    Cert.ReferenceIdeal.Read.val_main_v28 (F := Ideal) x0 x1 x2 = fun _ => Cert.Surv.loss (fun a => x0 (ix2 a (0 : Fin 1))) (fun a => x1 (ix1 a)) (fun a => Cert.Surv.event (x2 (ix1 a))) := by
  funext i
  rw [val_main_v28_apply, val_main_v27_apply, num_eq x0 x1 x2 hc, den_eq x1 x2 hc]
  rfl

end Cert.Surv.Ref

end
-- ==== Proof.lean ====
/-
  The certificate of the pairwise ranking loss kernel against its reference.

  The kernel visits the 8192 × 8192 matrix of ordered pairs of subjects tile by tile on an 8 × 8 grid, accumulating
  in two rows the sum of the weighted logistic terms and the sum of the weights; the reference forms the whole matrix
  and sums it at once. At the ideal instance both results are minus the first sum divided by the second: the sums are
  the same because addition of extended reals is commutative and associative, the weights are the same because the
  censoring words are 0 or 1 under the precondition (so that one minus the word is the same read before or after the
  conversion to a float), and the logistic function is the quotient the reference spells.

  The three frames: each kernel program runs as host operations, the pipelined region, host operations, its arguments
  written by none of them; the reference is a line of host operations.
-/
import proofs.«173071_j3633542332969_1_alg».proof.Defs
import proofs.«173071_j3633542332969_1_alg».proof.Proof.Gen.Kernel
import proofs.«173071_j3633542332969_1_alg».proof.Proof.Gen.Kernel.Skeleton
import proofs.«173071_j3633542332969_1_alg».proof.Proof.Gen.Kernel.Launch
import proofs.«173071_j3633542332969_1_alg».proof.Proof.Gen.Kernel.Points
import proofs.«173071_j3633542332969_1_alg».proof.Proof.Gen.KernelIdeal
import proofs.«173071_j3633542332969_1_alg».proof.Proof.Gen.KernelIdeal.Skeleton
import proofs.«173071_j3633542332969_1_alg».proof.Proof.Gen.KernelIdeal.Launch
import proofs.«173071_j3633542332969_1_alg».proof.Proof.Gen.KernelIdeal.Points
import proofs.«173071_j3633542332969_1_alg».proof.Proof.Gen.ReferenceIdeal
import proofs.«173071_j3633542332969_1_alg».proof.Proof.Gen.ReferenceIdeal.Run
import proofs.«173071_j3633542332969_1_alg».proof.Proof.Gen.ReferenceIdeal.Read
import proofs.«173071_j3633542332969_1_alg».proof.Proof.Gen.Pre_finite_inputs
import proofs.«173071_j3633542332969_1_alg».proof.Proof.KB.Launch
import proofs.«173071_j3633542332969_1_alg».proof.Proof.KI.Value
import proofs.«173071_j3633542332969_1_alg».proof.Proof.RefLoss
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments as launched. -/
theorem frame_k : Cert.frame_Kernel := fun m ρ _ =>
  (θ_run Cert.Kernel.defs _ _).mono (fun _ h c => (h c).2) (Cert.Kernel.Hand.run_main (F := Bits) m ρ)

/-- So does the idealized kernel. -/
theorem frame_ki : Cert.frame_KernelIdeal := fun m ρ _ =>
  (θ_run Cert.KernelIdeal.defs _ _).mono (fun _ h c => (h c).2) (Cert.KernelIdeal.Hand.run_main (F := Ideal) m ρ)

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end at the loss of the scores, the times and the event indicators. -/
theorem algebraic : Cert.algebraic_KernelIdeal_ReferenceIdeal := by
  intro m ρ m' ρ' hpre hagree
  refine ⟨fun c => fun _ => Cert.Surv.loss (Cert.KernelIdeal.Hand.scores m c) (Cert.KernelIdeal.Hand.times m c) (Cert.KernelIdeal.Hand.events m c), ?_, ?_⟩
  · exact (θ_run Cert.KernelIdeal.defs _ _).mono
      (fun _ h c => ⟨(h c).1.trans (Cert.KernelIdeal.Hand.result_eq m ρ c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, (hagree c).1, (hagree c).2.1, (hagree c).2.2]
    exact Cert.Surv.Ref.ref_eq_loss _ _ _ (Cert.Surv.Ref.censor_binary _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
